-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 103
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x1, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000x64, .f32⟩
  | .hbm, ⟨94, _⟩ => ⟨S1700000x1, .f32⟩
  | .hbm, ⟨95, _⟩ => ⟨S1700000x64, .f32⟩
  | .hbm, ⟨96, _⟩ => ⟨S1700000x64, .f32⟩
  | .hbm, ⟨97, _⟩ => ⟨S_, .f32⟩
  | .hbm, ⟨98, _⟩ => ⟨S100000x64, .f32⟩
  | .hbm, ⟨99, _⟩ => ⟨S1700000x1, .i32⟩
  | .hbm, ⟨100, _⟩ => ⟨S100000x64, .f32⟩
  | .hbm, ⟨101, _⟩ => ⟨S1x64, .f32⟩
  | .hbm, ⟨102, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S_, .f32⟩
  | .hbm, ⟨70, _⟩ => ⟨S100000x64, .f32⟩
  | .hbm, ⟨71, _⟩ => ⟨S100000x64, .i1⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x64, .f32⟩
  | .hbm, ⟨86, _⟩ => ⟨S1700000x1, .f32⟩
  | .hbm, ⟨87, _⟩ => ⟨S1700000x64, .f32⟩
  | .hbm, ⟨88, _⟩ => ⟨S1700000x64, .f32⟩
  | .hbm, ⟨89, _⟩ => ⟨S_, .f32⟩
  | .hbm, ⟨90, _⟩ => ⟨S100000x64, .f32⟩
  | .hbm, ⟨91, _⟩ => ⟨S1700000x1, .i32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | .hbm, ⟨96, _⟩ => ⟨S_, .f32⟩
  | .hbm, ⟨97, _⟩ => ⟨S_, .f32⟩
  | .hbm, ⟨98, _⟩ => ⟨S100000x64, .f32⟩
  | .hbm, ⟨99, _⟩ => ⟨S100000x64, .i1⟩
  | .hbm, ⟨100, _⟩ => ⟨S_, .f32⟩
  | .hbm, ⟨101, _⟩ => ⟨S100000x64, .f32⟩
  | .hbm, ⟨102, _⟩ => ⟨S100000x64, .f32⟩
  | .hbm, ⟨103, _⟩ => ⟨S100000x64, .f32⟩
  | .hbm, ⟨104, _⟩ => ⟨S100000x64, .f32⟩
  | .hbm, ⟨105, _⟩ => ⟨S_, .i32⟩
  | .hbm, ⟨106, _⟩ => ⟨S1700000, .i32⟩
  | .hbm, ⟨107, _⟩ => ⟨S1700000, .i1⟩
  | .hbm, ⟨108, _⟩ => ⟨S_, .i32⟩
  | .hbm, ⟨109, _⟩ => ⟨S1700000, .i32⟩
  | .hbm, ⟨110, _⟩ => ⟨S1700000, .i32⟩
  | .hbm, ⟨111, _⟩ => ⟨S1700000, .i32⟩
  | .hbm, ⟨112, _⟩ => ⟨S1700000x1, .i32⟩
  | .hbm, ⟨113, _⟩ => ⟨S1700000x64, .f32⟩
  | .hbm, ⟨114, _⟩ => ⟨S1700000x1, .f32⟩
  | .hbm, ⟨115, _⟩ => ⟨S1700000x64, .f32⟩
  | .hbm, ⟨116, _⟩ => ⟨S1700000x64, .f32⟩
  | .hbm, ⟨117, _⟩ => ⟨S_, .f32⟩
  | .hbm, ⟨118, _⟩ => ⟨S100000x64, .f32⟩
  | .hbm, ⟨119, _⟩ => ⟨S1700000x1, .i32⟩
  | .hbm, ⟨120, _⟩ => ⟨S100000x64, .f32⟩
  | .hbm, ⟨121, _⟩ => ⟨S1x64, .f32⟩
  | .hbm, ⟨122, _⟩ => ⟨S100000x64, .f32⟩
  | .hbm, ⟨123, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_call2_cst : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_v65 : Ref sig .tc := ⟨.hbm, 103, rfl⟩
abbrev main_v66 : Ref sig .tc := ⟨.hbm, 104, rfl⟩
abbrev main_c_14 : Ref sig .tc := ⟨.hbm, 105, rfl⟩
abbrev main_v67 : Ref sig .tc := ⟨.hbm, 106, rfl⟩
abbrev main_v68 : Ref sig .tc := ⟨.hbm, 107, rfl⟩
abbrev main_c_15 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_16 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The tiled program's run, with every buffer named at the end.

  The program is ten segments: stretches of whole-array operations and four tiled regions. Every weakly fair execution
  of it terminates, and at the end every buffer that outlives the regions holds what the last segment boundary's contents
  say: the fold of the stretches' results and of the regions' written-back blocks over the launch contents. In
  particular the result buffer holds the last region's output array, and the argument buffers what they were launched
  with.
-/
import proofs.«161881_j2370821947614_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and every buffer that outlives the regions ends at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The result buffer ends at the last region's output array and the arguments as launched. -/
theorem run_named : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)
    (run_all m ρ)

end Cert.KernelIdeal.KRun

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.LibMatProd.lean ====
/-
  The product of an M×K and a K×N array of extended reals as ONE function of the two arrays: entry (i, q) is the sum over
  k of l(i, k) · r(k, q). A host dot product with plain matrix-product dimension numbers, and a matrix-unit product into
  a zero accumulator, are that function at the ideal instance; and an entry of the product depends only on row i of the
  left operand and column q of the right one, so the product of a block of rows with the right operand is that block of
  rows of the whole product.
-/
import proofs.«161881_j2370821947614_1_alg».proof.Proof.LibDotPlain

noncomputable section

open scoped BigOperators

namespace Idealize.ShloMosaic.MatProd

open Idealize.ShloMosaic Idealize.ShloMosaic.ValueIdx Idealize.ShloMosaic.DotPlain

/-- Entry (i, q) of the product: the sum over k of l(i, k) · r(k, q). -/
def matProd {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

variable {M K N : Nat} {d : DotDims ⟨2, ![M, K]⟩ ⟨2, ![K, N]⟩ ⟨2, ![M, N]⟩}

/-- A host dot product with plain dimension numbers is the product. -/
theorem dotGeneral_eq (h : IsPlain d) (prec : Option ContractPrecision) {φ₁ φ₂ : FTy}
    (l : FVec Ideal ⟨2, ![M, K]⟩ φ₁) (r : FVec Ideal ⟨2, ![K, N]⟩ φ₂) :
    Host.dotGeneral d prec l r = matProd l r :=
  funext fun j => DotPlain.dotGeneral_apply h prec l r j

/-- A matrix-unit product into a zero accumulator is the product, at an entry. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = matProd l r j :=
  DotPlain.matmul_zero_apply h prec l r j

/-- An entry of a product of a block of rows (and a copy of the right operand) is the entry of the whole product whose
    row the block's row is: the sums agree term by term. -/
theorem matProd_of_rows {B : Nat} (lb : (⟨2, ![B, K]⟩ : Shape).Idx → EReal) (rb : (⟨2, ![K, N]⟩ : Shape).Idx → EReal)
    (l : (⟨2, ![M, K]⟩ : Shape).Idx → EReal) (r : (⟨2, ![K, N]⟩ : Shape).Idx → EReal)
    (p : Fin B) (q : Fin N) (i : Fin M)
    (hl : ∀ k : Fin K, lb (ix2 p k) = l (ix2 i k)) (hr : ∀ k : Fin K, rb (ix2 k q) = r (ix2 k q)) :
    matProd lb rb (ix2 p q) = matProd l r (ix2 i q) :=
  Finset.sum_congr rfl fun k _ => by
    show lb (ix2 p k) * rb (ix2 k q) = l (ix2 i k) * r (ix2 k q)
    rw [hl k, hr k]

end Idealize.ShloMosaic.MatProd

end
-- ==== Proof.Spec.lean ====
/-
  What a three-layer graph convolution computes, as one function of its arrays.

  The graph has 100000 nodes and 1600000 given edges, to which one self loop per node is added: 1700000 edges, edge e
  going from node src(e) to node dst(e). A node's degree is the number of edges ending in it, and the weight of an edge is
  deg(src)^(-1/2) * deg(dst)^(-1/2) (a node of degree zero counts for zero). One aggregation step replaces a node's feature row
  by the weighted sum of the feature rows at the sources of the edges that end in the node. A layer multiplies the
  features by a 64 x 64 weight matrix, aggregates, and adds a bias row; between layers the leaky rectifier of slope
  0.01 (as a 32-bit float) is applied entry by entry.

  The index arithmetic (source, destination, weight, aggregation) is kept as the whole-array operations that build it:
  both programs compared here build it the same way, so nothing has to be known about it beyond that. The dense
  parts, where the programs differ, are stated entry by entry.
-/
import proofs.«161881_j2370821947614_1_alg».proof.KernelIdeal
import proofs.«161881_j2370821947614_1_alg».proof.Proof.Gen.KernelIdeal
import proofs.«161881_j2370821947614_1_alg».proof.Proof.LibMatProd
import Idealize.ShloMosaic.Lib.ValueLayout
import Idealize.ShloMosaic.Lib.Pipeline.Value

noncomputable section

namespace Cert.Gcn

open Idealize.ShloMosaic Idealize.ShloMosaic.ValueIdx Idealize.ShloMosaic.MatProd
open Cert.KernelIdeal Cert.KernelIdeal.Facts₀

/-- The given edges: row 0 the sources, row 1 the destinations. -/
abbrev Edges : Type := IVec S2x1600000 32
/-- One node index per edge, self loops included. -/
abbrev EdgeIdx : Type := IVec S1700000 32
/-- One weight per edge. -/
abbrev EdgeWt : Type := FVec Ideal S1700000 .f32
/-- One feature row of 64 entries per node. -/
abbrev Feat : Type := FVec Ideal S100000x64 .f32
/-- A layer's weight matrix. -/
abbrev Wt : Type := FVec Ideal S64x64 .f32
/-- A layer's bias. -/
abbrev Bias : Type := FVec Ideal S64 .f32

/-- Row `k` of the given edges followed by the self loops 0, 1, …, 99999. -/
def srcOf (E : Edges) : EdgeIdx :=
  concatenate S1700000 0
    [⟨S1600000, fun i => shapeCast S1600000 (extractStridedSlice S1x1600000 ![0, 0] E slices_S2x1600000_S1x1600000_0_0) shapeCasts_S1x1600000_S1600000 i⟩,
     ⟨S100000, iotaInDim S100000 32 0⟩] concatenates_S1600000_S100000_S1700000_d0

/-- The destination of every edge: row 1 of the given edges, then the self loops. -/
def dstOf (E : Edges) : EdgeIdx :=
  concatenate S1700000 0
    [⟨S1600000, fun i => shapeCast S1600000 (extractStridedSlice S1x1600000 ![1, 0] E slices_S2x1600000_S1x1600000_1_0) shapeCasts_S1x1600000_S1600000 i⟩,
     ⟨S100000, iotaInDim S100000 32 0⟩] concatenates_S1600000_S100000_S1700000_d0

/-- A node index read the way an array subscript reads it: a negative one counts from the end. -/
def wrapIdx (s : EdgeIdx) : EdgeIdx :=
  select (cmpi .slt s (broadcastInDim S1700000 ![] bcast_S_S1700000 (constantI S_ 32 0#32)))
    (addi s (broadcastInDim S1700000 ![] bcast_S_S1700000 (constantI S_ 32 100000#32))) s

/-- Each node's degree: one counted per edge ending in it. -/
def degOf (d : EdgeIdx) : FVec Ideal S100000 .f32 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 d)
    (broadcastInDim S1700000 ![] bcast_S_S1700000 (constant (F := Ideal) S_ .f32 0x3F800000#32))

/-- deg^(-1/2), zero where the degree is not positive. -/
def dinvOf (d : EdgeIdx) : FVec Ideal S100000 .f32 :=
  select (cmpf .ogt (degOf d) (broadcastInDim S100000 ![] bcast_S_S100000 (constant (F := Ideal) S_ .f32 0x00000000#32)))
    (Host.rsqrt (F := Ideal) (degOf d))
    (broadcastInDim S100000 ![] bcast_S_S100000 (constant (F := Ideal) S_ .f32 0x00000000#32))

/-- deg^(-1/2) looked up at one end of every edge. -/
def dinvAt (d t : EdgeIdx) : EdgeWt :=
  Host.gather gather_S100000_S1700000x1_S1700000_n_0_n_n_0_1_1 (dinvOf d)
    (broadcastInDim S1700000x1 ![0] bcast_S1700000_S1700000x1_0 (wrapIdx t))

/-- The weight of every edge. -/
def normOf (E : Edges) : EdgeWt := mulf (dinvAt (dstOf E) (srcOf E)) (dinvAt (dstOf E) (dstOf E))

/-- One aggregation step: gather the rows at the sources, scale each by its edge's weight, add them up at the
    destinations. -/
def agg (s d : EdgeIdx) (n : EdgeWt) (h : Feat) : Feat :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 d)
    (mulf (Host.gather gather_S100000x64_S1700000x1_S1700000x64_1_0_n_n_0_1_164 h
        (broadcastInDim S1700000x1 ![0] bcast_S1700000_S1700000x1_0 (wrapIdx s)))
      (broadcastInDim S1700000x64 ![0, 1] bcast_S1700000x1_S1700000x64_0_1
        (broadcastInDim S1700000x1 ![0] bcast_S1700000_S1700000x1_0 n)))

/-- The leaky rectifier at one entry: the entry itself if it is at least zero, else the slope times it. -/
def leaky (v : EReal) : EReal :=
  Scalar.select (Ideal.cmp .oge v (Ideal.ofBits .f32 0x00000000#32)) v (Ideal.ofBits .f32 0x3C23D70A#32 * v)

/-- A bias added on every row, then the rectifier: what goes into the next layer's matrix product. -/
def biasLeaky (a : Feat) (b : Bias) : Feat := fun j => leaky (a j + b (ix1 (j 1)))

/-- A bias added on every row. -/
def addBias (a : Feat) (b : Bias) : Feat := fun j => a j + b (ix1 (j 1))

/-- The bias as an array of one row. -/
abbrev BiasRow : Type := FVec Ideal S1x64 .f32

/-- `biasLeaky` with the bias given as an array of one row. -/
def biasLeakyRow (a : Feat) (r : BiasRow) : Feat := fun j => leaky (a j + r (ix2 (0 : Fin 1) (j 1)))

/-- `addBias` with the bias given as an array of one row. -/
def addBiasRow (a : Feat) (r : BiasRow) : Feat := fun j => a j + r (ix2 (0 : Fin 1) (j 1))

theorem biasLeakyRow_apply (a : Feat) (r : BiasRow) (i : Fin 100000) (k : Fin 64) :
    biasLeakyRow a r (ix2 i k) = leaky (a (ix2 i k) + r (ix2 (0 : Fin 1) k)) := rfl

theorem addBiasRow_apply (a : Feat) (r : BiasRow) (i : Fin 100000) (k : Fin 64) :
    addBiasRow a r (ix2 i k) = a (ix2 i k) + r (ix2 (0 : Fin 1) k) := rfl

/-- The one-row array made by reshaping a bias holds the bias's entries: the two forms agree. -/
theorem biasLeakyRow_reshape (a : Feat) (b : Bias) (h : S64.ShapeCasts S1x64) :
    biasLeakyRow a (shapeCast S1x64 b h) = biasLeaky a b := by
  funext j
  obtain ⟨i, k, rfl⟩ : ∃ (i : Fin 100000) (k : Fin 64), j = ix2 i k := ⟨j 0, j 1, eq_ix2 j⟩
  rw [biasLeakyRow_apply, shapeCast_a_1a_apply]
  rfl

theorem addBiasRow_reshape (a : Feat) (b : Bias) (h : S64.ShapeCasts S1x64) :
    addBiasRow a (shapeCast S1x64 b h) = addBias a b := by
  funext j
  obtain ⟨i, k, rfl⟩ : ∃ (i : Fin 100000) (k : Fin 64), j = ix2 i k := ⟨j 0, j 1, eq_ix2 j⟩
  rw [addBiasRow_apply, shapeCast_a_1a_apply]
  rfl

/-- The three layers. -/
def gcnOut (E : Edges) (x : Feat) (W1 : Wt) (b1 : Bias) (W2 : Wt) (b2 : Bias) (W3 : Wt) (b3 : Bias) : Feat :=
  addBias (agg (srcOf E) (dstOf E) (normOf E)
    (matProd (biasLeaky (agg (srcOf E) (dstOf E) (normOf E)
      (matProd (biasLeaky (agg (srcOf E) (dstOf E) (normOf E) (matProd x W1)) b1) W2)) b2) W3)) b3

end Cert.Gcn

end
-- ==== Proof.KStages.lean ====
/-
  The tiled program's stretches of whole-array operations, read as values.

  Between the tiled regions the program runs the same whole-array operations as any plain statement of the model:
  first the edge indices, degrees and edge weights, then before each later region one aggregation step and the
  reshaping of that layer's bias to a row. Each stretch is read here from arbitrary buffer contents: the buffer it
  writes last holds the named function of the buffers it read, and a buffer it does not write keeps its contents.
-/
import proofs.«161881_j2370821947614_1_alg».proof.Proof.Gen.KernelIdeal.Frame
import proofs.«161881_j2370821947614_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.KStages

open Idealize.ShloMosaic Idealize.ShloMosaic.TcCoe Idealize.ShloMosaic.Tactic
open Idealize.SL Idealize.SL.Sem
open Idealize.ShloMosaic.Pipeline (Dat Cfg Window)
open Idealize.ShloMosaic.ValueIdx Idealize.ShloMosaic.MatProd
open Cert.KernelIdeal Cert.KernelIdeal.Gen
open Idealize.ShloMosaic.StableHlo
open Cert.Gcn

/-! ## What each stretch writes -/

/-- The buffers the operations of `hostOps0` write. -/
abbrev w0 : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt Ideal))).Forall fun op => op.writes ⊆ (w0.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- The buffers the operations of `hostOps0_1` write. -/
abbrev w01 : List (Ref sig .tc) := [main_call0_v0, main_call0_v1, main_v14]
theorem hostOps0_1_writes : (hostOps0_1 : List (HloOp τ sig (Elt Ideal))).Forall fun op => op.writes ⊆ (w01.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- The buffers the operations of `hostOps0_2` write. -/
abbrev w02 : List (Ref sig .tc) := [main_c, main_v15, main_v16, main_c_3, main_v17, main_v18, main_v19, main_v20, main_v21, main_c_4, main_v22, main_v23, main_c_5, main_v24, main_v25, main_v26, main_v27, main_v28, main_v29]
theorem hostOps0_2_writes : (hostOps0_2 : List (HloOp τ sig (Elt Ideal))).Forall fun op => op.writes ⊆ (w02.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- The buffers the operations of `hostOps1` write. -/
abbrev w1 : List (Ref sig .tc) := [main_c_6, main_v31, main_v32, main_c_7, main_v33, main_v34, main_v35, main_v36, main_v37, main_v38, main_v39, main_v40, main_cst_8, main_v41, main_v42, main_v43, main_v44]
theorem hostOps1_writes : (hostOps1 : List (HloOp τ sig (Elt Ideal))).Forall fun op => op.writes ⊆ (w1.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- The buffers the operations of `hostOps2` write. -/
abbrev w2 : List (Ref sig .tc) := [main_c_9, main_v46, main_v47, main_c_10, main_v48, main_v49, main_v50, main_v51, main_v52, main_v53, main_v54, main_v55, main_cst_11, main_v56, main_v57, main_v58, main_v59]
theorem hostOps2_writes : (hostOps2 : List (HloOp τ sig (Elt Ideal))).Forall fun op => op.writes ⊆ (w2.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- The buffers the operations of `hostOps3` write. -/
abbrev w3 : List (Ref sig .tc) := [main_c_12, main_v61, main_v62, main_c_13, main_v63, main_v64, main_v65, main_v66, main_v67, main_v68, main_v69, main_v70, main_cst_14, main_v71, main_v72, main_v73, main_v74]
theorem hostOps3_writes : (hostOps3 : List (HloOp τ sig (Elt Ideal))).Forall fun op => op.writes ⊆ (w3.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-! ## What each stretch computes, from any contents -/

variable (U : Valuation τ sig (Elt Ideal))

/-- The source of every edge, from the given edges. -/
theorem src_of : after hostOps0 U (Proc.devRef .tc main_v3) = srcOf (U (Proc.devRef .tc main_arg1)) := by
  dsimp only [hostOps0]
  after_results
  rfl

/-- The destination of every edge, from the given edges. -/
theorem dst_of : after hostOps0 U (Proc.devRef .tc main_v6) = dstOf (U (Proc.devRef .tc main_arg1)) := by
  dsimp only [hostOps0]
  after_results
  rfl

/-- Which nodes have a positive degree. -/
theorem degpos_of : after hostOps0 U (Proc.devRef .tc main_v12)
    = cmpf .ogt (degOf (dstOf (U (Proc.devRef .tc main_arg1))))
        (broadcastInDim S100000 ![] bcast_S_S100000 (constant (F := Ideal) S_ .f32 0x00000000#32)) := by
  dsimp only [hostOps0]
  after_results
  rfl

/-- deg^(-1/2) at every node. -/
theorem rsqrt_of : after hostOps0 U (Proc.devRef .tc main_v13)
    = Host.rsqrt (F := Ideal) (degOf (dstOf (U (Proc.devRef .tc main_arg1)))) := by
  dsimp only [hostOps0]
  after_results
  rfl

/-- The zero that stands for deg^(-1/2) at a node of degree zero. -/
theorem zero_of : after hostOps0 U (Proc.devRef .tc main_cst_2) = constant (F := Ideal) S_ .f32 0x00000000#32 := by
  dsimp only [hostOps0]
  after_results

/-- The choice between the two. -/
theorem dinv_of : after hostOps0_1 U (Proc.devRef .tc main_v14)
    = select (U (Proc.devRef .tc main_v12)) (U (Proc.devRef .tc main_v13))
        (broadcastInDim S100000 ![] bcast_S_S100000 (U (Proc.devRef .tc main_cst_2))) := by
  dsimp only [hostOps0_1]
  after_results
  rfl

set_option maxHeartbeats 4000000 in
/-- The weight of every edge, from deg^(-1/2) and the two ends. -/
theorem norm_of : after hostOps0_2 U (Proc.devRef .tc main_v29)
    = mulf (F := Ideal) (φ := .f32)
        (Host.gather gather_S100000_S1700000x1_S1700000_n_0_n_n_0_1_1 (U (Proc.devRef .tc main_v14) : FVec Ideal S100000 .f32)
          (broadcastInDim S1700000x1 ![0] bcast_S1700000_S1700000x1_0 (wrapIdx (U (Proc.devRef .tc main_v3)))))
        (Host.gather gather_S100000_S1700000x1_S1700000_n_0_n_n_0_1_1 (U (Proc.devRef .tc main_v14) : FVec Ideal S100000 .f32)
          (broadcastInDim S1700000x1 ![0] bcast_S1700000_S1700000x1_0 (wrapIdx (U (Proc.devRef .tc main_v6))))) := by
  dsimp only [hostOps0_2]
  after_results_simp
  rfl

set_option maxHeartbeats 4000000 in
/-- The first aggregation step. -/
theorem agg1_of : after hostOps1 U (Proc.devRef .tc main_v43)
    = agg (U (Proc.devRef .tc main_v3)) (U (Proc.devRef .tc main_v6)) (U (Proc.devRef .tc main_v29))
        (U (Proc.devRef .tc main_v30)) := by
  dsimp only [hostOps1]
  after_results_simp
  rfl

set_option maxHeartbeats 4000000 in
/-- The first bias as a row. -/
theorem row1_of : after hostOps1 U (Proc.devRef .tc main_v44)
    = shapeCast S1x64 (U (Proc.devRef .tc main_arg3)) shapeCasts_S64_S1x64 := by
  dsimp only [hostOps1]
  after_results_simp
  rfl

set_option maxHeartbeats 4000000 in
/-- The second aggregation step. -/
theorem agg2_of : after hostOps2 U (Proc.devRef .tc main_v58)
    = agg (U (Proc.devRef .tc main_v3)) (U (Proc.devRef .tc main_v6)) (U (Proc.devRef .tc main_v29))
        (U (Proc.devRef .tc main_v45)) := by
  dsimp only [hostOps2]
  after_results_simp
  rfl

set_option maxHeartbeats 4000000 in
/-- The second bias as a row. -/
theorem row2_of : after hostOps2 U (Proc.devRef .tc main_v59)
    = shapeCast S1x64 (U (Proc.devRef .tc main_arg5)) shapeCasts_S64_S1x64 := by
  dsimp only [hostOps2]
  after_results_simp
  rfl

set_option maxHeartbeats 4000000 in
/-- The third aggregation step. -/
theorem agg3_of : after hostOps3 U (Proc.devRef .tc main_v73)
    = agg (U (Proc.devRef .tc main_v3)) (U (Proc.devRef .tc main_v6)) (U (Proc.devRef .tc main_v29))
        (U (Proc.devRef .tc main_v60)) := by
  dsimp only [hostOps3]
  after_results_simp
  rfl

set_option maxHeartbeats 4000000 in
/-- The third bias as a row. -/
theorem row3_of : after hostOps3 U (Proc.devRef .tc main_v74)
    = shapeCast S1x64 (U (Proc.devRef .tc main_arg7)) shapeCasts_S64_S1x64 := by
  dsimp only [hostOps3]
  after_results_simp
  rfl

end Cert.KernelIdeal.KStages

end
-- ==== Proof.KReg0.lean ====
/-
  The first tiled region: the node features times the first weight matrix, ten blocks of 10000 rows.

  At grid point t the region reads rows 10000 t … 10000 t + 9999 of the features and the whole weight matrix, and
  writes the same rows of the output. Entry (p, q) of the block it writes is the sum over k of feature (10000 t + p, k)
  times weight (k, q): entry (10000 t + p, q) of the whole product. The ten blocks tile the output, so after the
  region the output array is the whole product.
-/
import proofs.«161881_j2370821947614_1_alg».proof.Proof.Gen.KernelIdeal.Frame
import proofs.«161881_j2370821947614_1_alg».proof.Proof.LibMatProd
import Idealize.ShloMosaic.Lib.Pipeline.Value
import Idealize.ShloMosaic.Lib.ValueIdx
import Idealize.ShloMosaic.Lib.ValueLayout

set_option maxRecDepth 16384

noncomputable section

namespace Cert.KernelIdeal.KReg0

open Idealize.ShloMosaic Idealize.ShloMosaic.TcCoe Idealize.ShloMosaic.Tactic
open Idealize.SL Idealize.SL.Sem
open Idealize.ShloMosaic.Pipeline (Dat Cfg Window)
open Idealize.ShloMosaic.ValueIdx Idealize.ShloMosaic.MatProd
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block product's dimension numbers are a plain matrix product's. -/
theorem plain : DotPlain.IsPlain dot_S10000x64_S64x64_S10000x64_1_0_0_1_n_n := ⟨rfl, rfl, rfl, rfl, rfl, rfl⟩

/-- An entry of the block the body computes, for a block of feature rows that are rows of `A` and a copy of the
    weights `W`: the entry of the whole product on that row. -/
theorem block_entry (A : FVec Ideal S100000x64 .f32) (W : FVec Ideal S64x64 .f32)
    (x0 : Vec Ideal S10000x64 .f32) (x1 : Vec Ideal S64x64 .f32) (p : Fin 10000) (q : Fin 64) (i : Fin 100000)
    (h0 : ∀ k : Fin 64, x0 (ix2 p k) = A (ix2 i k)) (h1 : ∀ k : Fin 64, x1 (ix2 k q) = W (ix2 k q)) :
    k0_pay1 x0 x1 (ix2 p q) = matProd A W (ix2 i q) := by
  unfold k0_pay1
  refine (MatProd.matmul_zero_apply plain none _ _ (ix2 p q)).trans ?_
  exact matProd_of_rows _ _ A W p q i (fun k => h0 k) (fun k => h1 k)

/-- Where each window's block sits at grid point `t`: the features' and the output's block row is `t`, the weights'
    block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t
      = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts t
  have ht : t.val < 10 := lt_of_lt_of_eq t.isLt (show cfg0.N = 10 from N_0)
  funext j
  obtain ⟨p, q, rfl⟩ : ∃ (p : Fin 10000) (q : Fin 64), j = ix2 p q := ⟨j 0, j 1, eq_ix2 j⟩
  have hp : p.val < 10000 := p.isLt
  show k0_pay1 (iblk0 V c 0 t) (iblk0 V c 1 t) (ix2 p q)
      = matProd (V c main_arg0) (V c main_arg2) (((cfg0.win 2).blk t).view.emb (ix2 p q))
  refine (block_entry (V c main_arg0) (V c main_arg2) _ _ p q ⟨t.val * 10000 + p.val, by omega⟩
    (fun k => ?_) (fun k => ?_)).trans (congrArg _ ?_)
  · show V c main_arg0 (((cfg0.win 0).blk t).view.emb (ix2 p k)) = V c main_arg0 _
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 64 + 1 * k.val = k.val; omega
  · show V c main_arg2 (((cfg0.win 1).blk t).view.emb (ix2 k q)) = V c main_arg2 _
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = q.val; omega
  · refine funext fun a => Fin.ext ?_
    match a with
    | ⟨0, _⟩ => show t.val * 10000 + p.val = win0_2.index t (0 : Fin 2) * 10000 + 1 * p.val; omega
    | ⟨1, _⟩ => show q.val = win0_2.index t (1 : Fin 2) * 64 + 1 * q.val; omega

/-- An index of the output array is in point `t`'s block iff each coordinate is in the block's range. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every row of the output is in the block of the point that is the row's number divided by 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, lt_of_lt_of_eq (by omega) (show (10 : ℕ) = cfg0.N from N_0.symm)⟩
  refine ⟨t, flush0_2 t, ?_⟩
  obtain ⟨e0, e1, e2, e3, e4, e5⟩ := idx_facts t
  have htv : t.val = (i 0).val / 10000 := rfl
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the output array is the whole product of the two arrays the region found. -/
theorem final (c : Dev nD) : (dat0 V c).arrAt 2 cfg0.N = matProd (V c main_arg0) (V c main_arg2) :=
  (dat0 V c).arrAt_eq_of_cover 2 _ (fun t _ => flushed_eq V c t) cover

end Cert.KernelIdeal.KReg0

end
-- ==== Proof.KReg1.lean ====
/-
  A middle tiled region: the aggregated features plus a bias row, through the leaky rectifier, times the layer's weight
  matrix, ten blocks of 10000 rows.

  At grid point t the region reads rows 10000 t … 10000 t + 9999 of the aggregated features, the one bias row and the
  whole weight matrix, and writes the same rows of the output. Entry (p, q) of the block it writes is the sum over k of
  leaky(feature (10000 t + p, k) + bias k) times weight (k, q): entry (10000 t + p, q) of the product of the whole
  rectified array with the weights. The ten blocks tile the output.
-/
import proofs.«161881_j2370821947614_1_alg».proof.Proof.Gen.KernelIdeal.Frame
import proofs.«161881_j2370821947614_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.KReg1

open Idealize.ShloMosaic Idealize.ShloMosaic.TcCoe Idealize.ShloMosaic.Tactic
open Idealize.SL Idealize.SL.Sem
open Idealize.ShloMosaic.Pipeline (Dat Cfg Window)
open Idealize.ShloMosaic.ValueIdx Idealize.ShloMosaic.MatProd
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block product's dimension numbers are a plain matrix product's. -/
theorem plain : DotPlain.IsPlain dot_S10000x64_S64x64_S10000x64_1_0_0_1_n_n := ⟨rfl, rfl, rfl, rfl, rfl, rfl⟩

/-- An entry of the block the body computes, for a block of rows of `A`, a copy of the bias row `R` and a copy of the
    weights `W`: the entry, on that row, of the product of the rectified array with the weights. -/
theorem block_entry (A : FVec Ideal S100000x64 .f32) (R : FVec Ideal S1x64 .f32) (W : FVec Ideal S64x64 .f32)
    (x0 : Vec Ideal S10000x64 .f32) (x1 : Vec Ideal S1x64 .f32) (x2 : Vec Ideal S64x64 .f32)
    (p : Fin 10000) (q : Fin 64) (i : Fin 100000)
    (h0 : ∀ k : Fin 64, x0 (ix2 p k) = A (ix2 i k))
    (h1 : ∀ k : Fin 64, x1 (ix2 (0 : Fin 1) k) = R (ix2 (0 : Fin 1) k))
    (h2 : ∀ k : Fin 64, x2 (ix2 k q) = W (ix2 k q)) :
    k1_pay1 x0 x1 x2 (ix2 p q) = matProd (Cert.Gcn.biasLeakyRow A R) W (ix2 i q) := by
  unfold k1_pay1
  refine (MatProd.matmul_zero_apply plain none _ _ (ix2 p q)).trans ?_
  refine matProd_of_rows _ _ (Cert.Gcn.biasLeakyRow A R) W p q i (fun k => ?_) (fun k => h2 k)
  show Cert.Gcn.leaky (shapeCast S10000x64 x0 shapeCasts_S10000x64_S10000x64 (ix2 p k)
      + broadcastTo S10000x64 (shapeCast S1x64 x1 shapeCasts_S1x64_S1x64) broadcasts_S1x64_S10000x64 (ix2 p k))
    = Cert.Gcn.leaky (A (ix2 i k) + R (ix2 (0 : Fin 1) k))
  rw [shapeCast_self, shapeCast_self, broadcastTo_1b_ab_apply, h0 k, h1 k]

/-- Where each window's block sits at grid point `t`: the features' and the output's block row is `t`, the bias row and
    the weights are whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole product. -/
theorem flushed_eq (c : Dev nD) (t : Fin cfg1.N) :
    (dat1 V c).flushed 3 t
      = ((cfg1.win 3).blk t).view.read (Elt Ideal)
          (matProd (Cert.Gcn.biasLeakyRow (V c main_v43) (V c main_v44)) (V c main_arg4)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  obtain ⟨e0, e1, e2, e3, e4, e5, e6, e7⟩ := idx_facts t
  have ht : t.val < 10 := lt_of_lt_of_eq t.isLt (show cfg1.N = 10 from N_1)
  funext j
  obtain ⟨p, q, rfl⟩ : ∃ (p : Fin 10000) (q : Fin 64), j = ix2 p q := ⟨j 0, j 1, eq_ix2 j⟩
  have hp : p.val < 10000 := p.isLt
  show k1_pay1 (iblk1 V c 0 t) (iblk1 V c 1 t) (iblk1 V c 2 t) (ix2 p q)
      = matProd (Cert.Gcn.biasLeakyRow (V c main_v43) (V c main_v44)) (V c main_arg4) (((cfg1.win 3).blk t).view.emb (ix2 p q))
  refine (block_entry (V c main_v43) (V c main_v44) (V c main_arg4) _ _ _ p q ⟨t.val * 10000 + p.val, by omega⟩
    (fun k => ?_) (fun k => ?_) (fun k => ?_)).trans (congrArg _ ?_)
  · show V c main_v43 (((cfg1.win 0).blk t).view.emb (ix2 p k)) = V c main_v43 _
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * k.val = k.val; omega
  · show V c main_v44 (((cfg1.win 1).blk t).view.emb (ix2 (0 : Fin 1) k)) = V c main_v44 _
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · show V c main_arg4 (((cfg1.win 2).blk t).view.emb (ix2 k q)) = V c main_arg4 _
    refine congrArg _ (funext fun a => Fin.ext ?_)
    match a with
    | ⟨0, _⟩ => show win1_2.index t (0 : Fin 2) * 64 + 1 * k.val = k.val; omega
    | ⟨1, _⟩ => show win1_2.index t (1 : Fin 2) * 64 + 1 * q.val = q.val; omega
  · refine funext fun a => Fin.ext ?_
    match a with
    | ⟨0, _⟩ => show t.val * 10000 + p.val = win1_3.index t (0 : Fin 2) * 10000 + 1 * p.val; omega
    | ⟨1, _⟩ => show q.val = win1_3.index t (1 : Fin 2) * 64 + 1 * q.val; omega

/-- An index of the output array is in point `t`'s block iff each coordinate is in the block's range. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v45).slice (win1_3.rect t)).set ↔ _
  rw [View.set_slice_whole, Rect.mem_set_unit]
  exact Iff.rfl

/-- Every row of the output is in the block of the point that is the row's number divided by 10000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  let t : Fin cfg1.N := ⟨(i 0).val / 10000, lt_of_lt_of_eq (by omega) (show (10 : ℕ) = cfg1.N from N_1.symm)⟩
  refine ⟨t, flush1_3 t, ?_⟩
  obtain ⟨e0, e1, e2, e3, e4, e5, e6, e7⟩ := idx_facts t
  have htv : t.val = (i 0).val / 10000 := rfl
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- After the region the output array is the product of the rectified array with the weights, of the arrays the region
    found. -/
theorem final (c : Dev nD) :
    (dat1 V c).arrAt 3 cfg1.N = matProd (Cert.Gcn.biasLeakyRow (V c main_v43) (V c main_v44)) (V c main_arg4) :=
  (dat1 V c).arrAt_eq_of_cover 3 _ (fun t _ => flushed_eq V c t) cover

end Cert.KernelIdeal.KReg1

end
-- ==== Proof.KReg2.lean ====
/-
  A middle tiled region: the aggregated features plus a bias row, through the leaky rectifier, times the layer's weight
  matrix, ten blocks of 10000 rows.

  At grid point t the region reads rows 10000 t … 10000 t + 9999 of the aggregated features, the one bias row and the
  whole weight matrix, and writes the same rows of the output. Entry (p, q) of the block it writes is the sum over k of
  leaky(feature (10000 t + p, k) + bias k) times weight (k, q): entry (10000 t + p, q) of the product of the whole
  rectified array with the weights. The ten blocks tile the output.
-/
import proofs.«161881_j2370821947614_1_alg».proof.Proof.Gen.KernelIdeal.Frame
import proofs.«161881_j2370821947614_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.KReg2

open Idealize.ShloMosaic Idealize.ShloMosaic.TcCoe Idealize.ShloMosaic.Tactic
open Idealize.SL Idealize.SL.Sem
open Idealize.ShloMosaic.Pipeline (Dat Cfg Window)
open Idealize.ShloMosaic.ValueIdx Idealize.ShloMosaic.MatProd
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block product's dimension numbers are a plain matrix product's. -/
theorem plain : DotPlain.IsPlain dot_S10000x64_S64x64_S10000x64_1_0_0_1_n_n := ⟨rfl, rfl, rfl, rfl, rfl, rfl⟩

/-- An entry of the block the body computes, for a block of rows of `A`, a copy of the bias row `R` and a copy of the
    weights `W`: the entry, on that row, of the product of the rectified array with the weights. -/
theorem block_entry (A : FVec Ideal S100000x64 .f32) (R : FVec Ideal S1x64 .f32) (W : FVec Ideal S64x64 .f32)
    (x0 : Vec Ideal S10000x64 .f32) (x1 : Vec Ideal S1x64 .f32) (x2 : Vec Ideal S64x64 .f32)
    (p : Fin 10000) (q : Fin 64) (i : Fin 100000)
    (h0 : ∀ k : Fin 64, x0 (ix2 p k) = A (ix2 i k))
    (h1 : ∀ k : Fin 64, x1 (ix2 (0 : Fin 1) k) = R (ix2 (0 : Fin 1) k))
    (h2 : ∀ k : Fin 64, x2 (ix2 k q) = W (ix2 k q)) :
    k2_pay1 x0 x1 x2 (ix2 p q) = matProd (Cert.Gcn.biasLeakyRow A R) W (ix2 i q) := by
  unfold k2_pay1
  refine (MatProd.matmul_zero_apply plain none _ _ (ix2 p q)).trans ?_
  refine matProd_of_rows _ _ (Cert.Gcn.biasLeakyRow A R) W p q i (fun k => ?_) (fun k => h2 k)
  show Cert.Gcn.leaky (shapeCast S10000x64 x0 shapeCasts_S10000x64_S10000x64 (ix2 p k)
      + broadcastTo S10000x64 (shapeCast S1x64 x1 shapeCasts_S1x64_S1x64) broadcasts_S1x64_S10000x64 (ix2 p k))
    = Cert.Gcn.leaky (A (ix2 i k) + R (ix2 (0 : Fin 1) k))
  rw [shapeCast_self, shapeCast_self, broadcastTo_1b_ab_apply, h0 k, h1 k]

/-- Where each window's block sits at grid point `t`: the features' and the output's block row is `t`, the bias row and
    the weights are whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the whole product. -/
theorem flushed_eq (c : Dev nD) (t : Fin cfg2.N) :
    (dat2 V c).flushed 3 t
      = ((cfg2.win 3).blk t).view.read (Elt Ideal)
          (matProd (Cert.Gcn.biasLeakyRow (V c main_v58) (V c main_v59)) (V c main_arg6)) := by
  show (cfg2.win 3).cut (grid2.coords t) ((dat2 V c).after 3 t) = _
  rw [after2_3]
  unfold out2_3
  rw [View.canon_unit_zero hz]
  simp only [View.ld_unit_zero (S := S10000x64) hz, View.ld_unit_zero (S := S1x64) hz, View.ld_unit_zero (S := S64x64) hz]
  obtain ⟨e0, e1, e2, e3, e4, e5, e6, e7⟩ := idx_facts t
  have ht : t.val < 10 := lt_of_lt_of_eq t.isLt (show cfg2.N = 10 from N_2)
  funext j
  obtain ⟨p, q, rfl⟩ : ∃ (p : Fin 10000) (q : Fin 64), j = ix2 p q := ⟨j 0, j 1, eq_ix2 j⟩
  have hp : p.val < 10000 := p.isLt
  show k2_pay1 (iblk2 V c 0 t) (iblk2 V c 1 t) (iblk2 V c 2 t) (ix2 p q)
      = matProd (Cert.Gcn.biasLeakyRow (V c main_v58) (V c main_v59)) (V c main_arg6) (((cfg2.win 3).blk t).view.emb (ix2 p q))
  refine (block_entry (V c main_v58) (V c main_v59) (V c main_arg6) _ _ _ p q ⟨t.val * 10000 + p.val, by omega⟩
    (fun k => ?_) (fun k => ?_) (fun k => ?_)).trans (congrArg _ ?_)
  · show V c main_v58 (((cfg2.win 0).blk t).view.emb (ix2 p k)) = V c main_v58 _
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 64 + 1 * k.val = k.val; omega
  · show V c main_v59 (((cfg2.win 1).blk t).view.emb (ix2 (0 : Fin 1) k)) = V c main_v59 _
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * k.val = k.val; omega
  · show V c main_arg6 (((cfg2.win 2).blk t).view.emb (ix2 k q)) = V c main_arg6 _
    refine congrArg _ (funext fun a => Fin.ext ?_)
    match a with
    | ⟨0, _⟩ => show win2_2.index t (0 : Fin 2) * 64 + 1 * k.val = k.val; omega
    | ⟨1, _⟩ => show win2_2.index t (1 : Fin 2) * 64 + 1 * q.val = q.val; omega
  · refine funext fun a => Fin.ext ?_
    match a with
    | ⟨0, _⟩ => show t.val * 10000 + p.val = win2_3.index t (0 : Fin 2) * 10000 + 1 * p.val; omega
    | ⟨1, _⟩ => show q.val = win2_3.index t (1 : Fin 2) * 64 + 1 * q.val; omega

/-- An index of the output array is in point `t`'s block iff each coordinate is in the block's range. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v60).slice (win2_3.rect t)).set ↔ _
  rw [View.set_slice_whole, Rect.mem_set_unit]
  exact Iff.rfl

/-- Every row of the output is in the block of the point that is the row's number divided by 10000. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  let t : Fin cfg2.N := ⟨(i 0).val / 10000, lt_of_lt_of_eq (by omega) (show (10 : ℕ) = cfg2.N from N_2.symm)⟩
  refine ⟨t, flush2_3 t, ?_⟩
  obtain ⟨e0, e1, e2, e3, e4, e5, e6, e7⟩ := idx_facts t
  have htv : t.val = (i 0).val / 10000 := rfl
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- After the region the output array is the product of the rectified array with the weights, of the arrays the region
    found. -/
theorem final (c : Dev nD) :
    (dat2 V c).arrAt 3 cfg2.N = matProd (Cert.Gcn.biasLeakyRow (V c main_v58) (V c main_v59)) (V c main_arg6) :=
  (dat2 V c).arrAt_eq_of_cover 3 _ (fun t _ => flushed_eq V c t) cover

end Cert.KernelIdeal.KReg2

end
-- ==== Proof.KReg3.lean ====
/-
  The last tiled region: the aggregated features plus the last bias row, ten blocks of 10000 rows.

  At grid point t the region reads rows 10000 t … 10000 t + 9999 of the aggregated features and the one bias row, and
  writes the same rows of the output: entry (p, q) of the block is feature (10000 t + p, q) plus bias q. The ten blocks
  tile the output.
-/
import proofs.«161881_j2370821947614_1_alg».proof.Proof.Gen.KernelIdeal.Frame
import proofs.«161881_j2370821947614_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.KReg3

open Idealize.ShloMosaic Idealize.ShloMosaic.TcCoe Idealize.ShloMosaic.Tactic
open Idealize.SL Idealize.SL.Sem
open Idealize.ShloMosaic.Pipeline (Dat Cfg Window)
open Idealize.ShloMosaic.ValueIdx Idealize.ShloMosaic.MatProd
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- An entry of the block the body computes, for a block of rows of `A` and a copy of the bias row `R`. -/
theorem block_entry (A : FVec Ideal S100000x64 .f32) (R : FVec Ideal S1x64 .f32)
    (x0 : Vec Ideal S10000x64 .f32) (x1 : Vec Ideal S1x64 .f32) (p : Fin 10000) (q : Fin 64) (i : Fin 100000)
    (h0 : x0 (ix2 p q) = A (ix2 i q)) (h1 : x1 (ix2 (0 : Fin 1) q) = R (ix2 (0 : Fin 1) q)) :
    k3_pay1 x0 x1 (ix2 p q) = Cert.Gcn.addBiasRow A R (ix2 i q) := by
  unfold k3_pay1
  show shapeCast S10000x64 x0 shapeCasts_S10000x64_S10000x64 (ix2 p q)
      + broadcastTo S10000x64 (shapeCast S1x64 x1 shapeCasts_S1x64_S1x64) broadcasts_S1x64_S10000x64 (ix2 p q)
    = A (ix2 i q) + R (ix2 (0 : Fin 1) q)
  rw [shapeCast_self, shapeCast_self, broadcastTo_1b_ab_apply, h0, h1]

/-- Where each window's block sits at grid point `t`. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole sum. -/
theorem flushed_eq (c : Dev nD) (t : Fin cfg3.N) :
    (dat3 V c).flushed 2 t
      = ((cfg3.win 2).blk t).view.read (Elt Ideal) (Cert.Gcn.addBiasRow (V c main_v73) (V c main_v74)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  obtain ⟨e0, e1, e2, e3, e4, e5⟩ := idx_facts t
  have ht : t.val < 10 := lt_of_lt_of_eq t.isLt (show cfg3.N = 10 from N_3)
  funext j
  obtain ⟨p, q, rfl⟩ : ∃ (p : Fin 10000) (q : Fin 64), j = ix2 p q := ⟨j 0, j 1, eq_ix2 j⟩
  have hp : p.val < 10000 := p.isLt
  show k3_pay1 (iblk3 V c 0 t) (iblk3 V c 1 t) (ix2 p q)
      = Cert.Gcn.addBiasRow (V c main_v73) (V c main_v74) (((cfg3.win 2).blk t).view.emb (ix2 p q))
  refine (block_entry (V c main_v73) (V c main_v74) _ _ p q ⟨t.val * 10000 + p.val, by omega⟩ ?_ ?_).trans (congrArg _ ?_)
  · show V c main_v73 (((cfg3.win 0).blk t).view.emb (ix2 p q)) = V c main_v73 _
    refine congrArg _ (funext fun a => Fin.ext ?_)
    match a with
    | ⟨0, _⟩ => show win3_0.index t (0 : Fin 2) * 10000 + 1 * p.val = t.val * 10000 + p.val; omega
    | ⟨1, _⟩ => show win3_0.index t (1 : Fin 2) * 64 + 1 * q.val = q.val; omega
  · show V c main_v74 (((cfg3.win 1).blk t).view.emb (ix2 (0 : Fin 1) q)) = V c main_v74 _
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * q.val = q.val; omega
  · refine funext fun a => Fin.ext ?_
    match a with
    | ⟨0, _⟩ => show t.val * 10000 + p.val = win3_2.index t (0 : Fin 2) * 10000 + 1 * p.val; omega
    | ⟨1, _⟩ => show q.val = win3_2.index t (1 : Fin 2) * 64 + 1 * q.val; omega

/-- An index of the output array is in point `t`'s block iff each coordinate is in the block's range. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v75).slice (win3_2.rect t)).set ↔ _
  rw [View.set_slice_whole, Rect.mem_set_unit]
  exact Iff.rfl

/-- Every row of the output is in the block of the point that is the row's number divided by 10000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 10000, lt_of_lt_of_eq (by omega) (show (10 : ℕ) = cfg3.N from N_3.symm)⟩
  refine ⟨t, flush3_2 t, ?_⟩
  obtain ⟨e0, e1, e2, e3, e4, e5⟩ := idx_facts t
  have htv : t.val = (i 0).val / 10000 := rfl
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the region the output array is the aggregated features plus the bias row, of the arrays the region found. -/
theorem final (c : Dev nD) :
    (dat3 V c).arrAt 2 cfg3.N = Cert.Gcn.addBiasRow (V c main_v73) (V c main_v74) :=
  (dat3 V c).arrAt_eq_of_cover 2 _ (fun t _ => flushed_eq V c t) cover

end Cert.KernelIdeal.KReg3

end
-- ==== Proof.KFold.lean ====
/-
  The tiled program's result as one function of its arguments.

  The buffer contents at the program's segment boundaries are followed from the launch to the end. After the first
  three stretches the edge sources, destinations and weights are in place. Each tiled region then leaves its output
  array at the region's function of the arrays it found, each later stretch aggregates that array and reshapes the
  next bias, and nothing else that is still needed is overwritten on the way. Put together, the result buffer ends at
  the three-layer graph convolution of the argument arrays.
-/
import proofs.«161881_j2370821947614_1_alg».proof.Proof.Gen.KernelIdeal.Frame
import proofs.«161881_j2370821947614_1_alg».proof.Proof.KStages
import proofs.«161881_j2370821947614_1_alg».proof.Proof.KReg0
import proofs.«161881_j2370821947614_1_alg».proof.Proof.KReg1
import proofs.«161881_j2370821947614_1_alg».proof.Proof.KReg2
import proofs.«161881_j2370821947614_1_alg».proof.Proof.KReg3
import Idealize.ShloMosaic.Lib.Pipeline.Value
import Idealize.ShloMosaic.Lib.ValueIdx
import Idealize.ShloMosaic.Lib.ValueLayout

set_option maxRecDepth 16384

noncomputable section

namespace Cert.KernelIdeal.KFold

open Idealize.ShloMosaic Idealize.ShloMosaic.TcCoe Idealize.ShloMosaic.Tactic
open Idealize.SL Idealize.SL.Sem
open Idealize.ShloMosaic.Pipeline (Dat Cfg Window)
open Idealize.ShloMosaic.ValueIdx Idealize.ShloMosaic.MatProd
open Cert.KernelIdeal Cert.KernelIdeal.Gen
open Idealize.ShloMosaic.StableHlo (after)
open Cert.Gcn Cert.KernelIdeal.KStages

variable (m : (ℓ : Loc nD τ sig) → Buf (Elt Ideal) ℓ) (ρ : Dev nD → PrngReg)

/-! ## A buffer a segment does not write keeps its contents -/

theorem keep1 (c : Dev nD) (r : Ref sig .tc) (h : r ∉ w0) : W1 m ρ c (Proc.devRef .tc r) = W0 m ρ c (Proc.devRef .tc r) :=
  StableHlo.after_of_writes_sub hostOps0 _ hostOps0_writes h
theorem keep2 (c : Dev nD) (r : Ref sig .tc) (h : r ∉ w01) : W2 m ρ c (Proc.devRef .tc r) = W1 m ρ c (Proc.devRef .tc r) :=
  StableHlo.after_of_writes_sub hostOps0_1 _ hostOps0_1_writes h
theorem keep3 (c : Dev nD) (r : Ref sig .tc) (h : r ∉ w02) : W3 m ρ c (Proc.devRef .tc r) = W2 m ρ c (Proc.devRef .tc r) :=
  StableHlo.after_of_writes_sub hostOps0_2 _ hostOps0_2_writes h
theorem keep4 (c : Dev nD) (r : Ref sig .tc) (h : ∀ w, Pipeline.arrRef spec0 w ≠ r) : W4 m ρ c (Proc.devRef .tc r) = W3 m ρ c (Proc.devRef .tc r) :=
  W4_of_ne m ρ c r h
theorem keep5 (c : Dev nD) (r : Ref sig .tc) (h : r ∉ w1) : W5 m ρ c (Proc.devRef .tc r) = W4 m ρ c (Proc.devRef .tc r) :=
  StableHlo.after_of_writes_sub hostOps1 _ hostOps1_writes h
theorem keep6 (c : Dev nD) (r : Ref sig .tc) (h : ∀ w, Pipeline.arrRef spec1 w ≠ r) : W6 m ρ c (Proc.devRef .tc r) = W5 m ρ c (Proc.devRef .tc r) :=
  W6_of_ne m ρ c r h
theorem keep7 (c : Dev nD) (r : Ref sig .tc) (h : r ∉ w2) : W7 m ρ c (Proc.devRef .tc r) = W6 m ρ c (Proc.devRef .tc r) :=
  StableHlo.after_of_writes_sub hostOps2 _ hostOps2_writes h
theorem keep8 (c : Dev nD) (r : Ref sig .tc) (h : ∀ w, Pipeline.arrRef spec2 w ≠ r) : W8 m ρ c (Proc.devRef .tc r) = W7 m ρ c (Proc.devRef .tc r) :=
  W8_of_ne m ρ c r h

/-- A buffer the first three stretches do not write holds its launch contents when the first region is entered. -/
theorem launch3 (c : Dev nD) (r : Ref sig .tc) (h0 : r ∉ w0) (h1 : r ∉ w01) (h2 : r ∉ w02) :
    W3 m ρ c (Proc.devRef .tc r) = m ((c : Thread nD τ).loc r) :=
  (keep3 m ρ c r h2).trans ((keep2 m ρ c r h1).trans ((keep1 m ρ c r h0).trans rfl))

/-! ## The edge arrays, when the first region is entered -/

theorem src3 (c : Dev nD) : W3 m ρ c (Proc.devRef .tc main_v3) = srcOf (m ((c : Thread nD τ).loc main_arg1)) :=
  (keep3 m ρ c main_v3 (by decide)).trans ((keep2 m ρ c main_v3 (by decide)).trans (src_of (W0 m ρ c)))

theorem dst3 (c : Dev nD) : W3 m ρ c (Proc.devRef .tc main_v6) = dstOf (m ((c : Thread nD τ).loc main_arg1)) :=
  (keep3 m ρ c main_v6 (by decide)).trans ((keep2 m ρ c main_v6 (by decide)).trans (dst_of (W0 m ρ c)))

theorem norm3 (c : Dev nD) : W3 m ρ c (Proc.devRef .tc main_v29) = normOf (m ((c : Thread nD τ).loc main_arg1)) := by
  have h14 : W2 m ρ c (Proc.devRef .tc main_v14) = dinvOf (dstOf (m ((c : Thread nD τ).loc main_arg1))) := by
    show after hostOps0_1 (W1 m ρ c) (Proc.devRef .tc main_v14) = _
    rw [dinv_of, show W1 m ρ c (Proc.devRef .tc main_v12) = _ from degpos_of (W0 m ρ c),
      show W1 m ρ c (Proc.devRef .tc main_v13) = _ from rsqrt_of (W0 m ρ c),
      show W1 m ρ c (Proc.devRef .tc main_cst_2) = _ from zero_of (W0 m ρ c)]
    rfl
  have h3 : W2 m ρ c (Proc.devRef .tc main_v3) = srcOf (m ((c : Thread nD τ).loc main_arg1)) :=
    (keep2 m ρ c main_v3 (by decide)).trans (src_of (W0 m ρ c))
  have h6 : W2 m ρ c (Proc.devRef .tc main_v6) = dstOf (m ((c : Thread nD τ).loc main_arg1)) :=
    (keep2 m ρ c main_v6 (by decide)).trans (dst_of (W0 m ρ c))
  show after hostOps0_2 (W2 m ρ c) (Proc.devRef .tc main_v29) = _
  rw [norm_of, h14, h3, h6]
  rfl

/-! ## Layer 1 -/

/-- The first region's output: the features times the first weights. -/
theorem h1_4 (c : Dev nD) : W4 m ρ c (Proc.devRef .tc main_v30) = (matProd (m ((c : Thread nD τ).loc main_arg0)) (m ((c : Thread nD τ).loc main_arg2))) := by
  refine (W4_arr m ρ c 2).trans ((KReg0.final (V3 m ρ) c).trans ?_)
  show matProd (W3 m ρ c (Proc.devRef .tc main_arg0)) (W3 m ρ c (Proc.devRef .tc main_arg2)) = _
  rw [launch3 m ρ c main_arg0 (by decide) (by decide) (by decide), launch3 m ρ c main_arg2 (by decide) (by decide) (by decide)]

theorem a1_5 (c : Dev nD) : W5 m ρ c (Proc.devRef .tc main_v43) = (agg (srcOf (m ((c : Thread nD τ).loc main_arg1))) (dstOf (m ((c : Thread nD τ).loc main_arg1))) (normOf (m ((c : Thread nD τ).loc main_arg1))) (matProd (m ((c : Thread nD τ).loc main_arg0)) (m ((c : Thread nD τ).loc main_arg2)))) := by
  show after hostOps1 (W4 m ρ c) (Proc.devRef .tc main_v43) = _
  rw [agg1_of, (keep4 m ρ c main_v3 (by decide)).trans (src3 m ρ c), (keep4 m ρ c main_v6 (by decide)).trans (dst3 m ρ c),
    (keep4 m ρ c main_v29 (by decide)).trans (norm3 m ρ c), h1_4]

theorem row1_5 (c : Dev nD) : W5 m ρ c (Proc.devRef .tc main_v44) = shapeCast S1x64 (m ((c : Thread nD τ).loc main_arg3)) shapeCasts_S64_S1x64 := by
  show after hostOps1 (W4 m ρ c) (Proc.devRef .tc main_v44) = _
  rw [row1_of, (keep4 m ρ c main_arg3 (by decide)).trans (launch3 m ρ c main_arg3 (by decide) (by decide) (by decide))]

theorem w2_5 (c : Dev nD) : W5 m ρ c (Proc.devRef .tc main_arg4) = m ((c : Thread nD τ).loc main_arg4) :=
  (keep5 m ρ c main_arg4 (by decide)).trans ((keep4 m ρ c main_arg4 (by decide)).trans (launch3 m ρ c main_arg4 (by decide) (by decide) (by decide)))

/-! ## Layer 2 -/

theorem h2_6 (c : Dev nD) : W6 m ρ c (Proc.devRef .tc main_v45) = (matProd (biasLeaky (agg (srcOf (m ((c : Thread nD τ).loc main_arg1))) (dstOf (m ((c : Thread nD τ).loc main_arg1))) (normOf (m ((c : Thread nD τ).loc main_arg1))) (matProd (m ((c : Thread nD τ).loc main_arg0)) (m ((c : Thread nD τ).loc main_arg2)))) (m ((c : Thread nD τ).loc main_arg3))) (m ((c : Thread nD τ).loc main_arg4))) := by
  refine (W6_arr m ρ c 3).trans ((KReg1.final (V5 m ρ) c).trans ?_)
  show matProd (biasLeakyRow (W5 m ρ c (Proc.devRef .tc main_v43)) (W5 m ρ c (Proc.devRef .tc main_v44))) (W5 m ρ c (Proc.devRef .tc main_arg4)) = _
  rw [a1_5, row1_5, w2_5, biasLeakyRow_reshape]

theorem a2_7 (c : Dev nD) : W7 m ρ c (Proc.devRef .tc main_v58) = (agg (srcOf (m ((c : Thread nD τ).loc main_arg1))) (dstOf (m ((c : Thread nD τ).loc main_arg1))) (normOf (m ((c : Thread nD τ).loc main_arg1))) (matProd (biasLeaky (agg (srcOf (m ((c : Thread nD τ).loc main_arg1))) (dstOf (m ((c : Thread nD τ).loc main_arg1))) (normOf (m ((c : Thread nD τ).loc main_arg1))) (matProd (m ((c : Thread nD τ).loc main_arg0)) (m ((c : Thread nD τ).loc main_arg2)))) (m ((c : Thread nD τ).loc main_arg3))) (m ((c : Thread nD τ).loc main_arg4)))) := by
  show after hostOps2 (W6 m ρ c) (Proc.devRef .tc main_v58) = _
  rw [agg2_of,
    (keep6 m ρ c main_v3 (by decide)).trans ((keep5 m ρ c main_v3 (by decide)).trans ((keep4 m ρ c main_v3 (by decide)).trans (src3 m ρ c))),
    (keep6 m ρ c main_v6 (by decide)).trans ((keep5 m ρ c main_v6 (by decide)).trans ((keep4 m ρ c main_v6 (by decide)).trans (dst3 m ρ c))),
    (keep6 m ρ c main_v29 (by decide)).trans ((keep5 m ρ c main_v29 (by decide)).trans ((keep4 m ρ c main_v29 (by decide)).trans (norm3 m ρ c))),
    h2_6]

theorem arg_6 (c : Dev nD) (r : Ref sig .tc) (h0 : r ∉ w0) (h1 : r ∉ w01) (h2 : r ∉ w02) (h4 : ∀ w, Pipeline.arrRef spec0 w ≠ r)
    (h5 : r ∉ w1) (h6 : ∀ w, Pipeline.arrRef spec1 w ≠ r) : W6 m ρ c (Proc.devRef .tc r) = m ((c : Thread nD τ).loc r) :=
  (keep6 m ρ c r h6).trans ((keep5 m ρ c r h5).trans ((keep4 m ρ c r h4).trans (launch3 m ρ c r h0 h1 h2)))

theorem row2_7 (c : Dev nD) : W7 m ρ c (Proc.devRef .tc main_v59) = shapeCast S1x64 (m ((c : Thread nD τ).loc main_arg5)) shapeCasts_S64_S1x64 := by
  show after hostOps2 (W6 m ρ c) (Proc.devRef .tc main_v59) = _
  rw [row2_of, arg_6 m ρ c main_arg5 (by decide) (by decide) (by decide) (by decide) (by decide) (by decide)]

theorem w3_7 (c : Dev nD) : W7 m ρ c (Proc.devRef .tc main_arg6) = m ((c : Thread nD τ).loc main_arg6) :=
  (keep7 m ρ c main_arg6 (by decide)).trans (arg_6 m ρ c main_arg6 (by decide) (by decide) (by decide) (by decide) (by decide) (by decide))

/-! ## Layer 3 -/

theorem h3_8 (c : Dev nD) : W8 m ρ c (Proc.devRef .tc main_v60) = (matProd (biasLeaky (agg (srcOf (m ((c : Thread nD τ).loc main_arg1))) (dstOf (m ((c : Thread nD τ).loc main_arg1))) (normOf (m ((c : Thread nD τ).loc main_arg1))) (matProd (biasLeaky (agg (srcOf (m ((c : Thread nD τ).loc main_arg1))) (dstOf (m ((c : Thread nD τ).loc main_arg1))) (normOf (m ((c : Thread nD τ).loc main_arg1))) (matProd (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6))) := by
  refine (W8_arr m ρ c 3).trans ((KReg2.final (V7 m ρ) c).trans ?_)
  show matProd (biasLeakyRow (W7 m ρ c (Proc.devRef .tc main_v58)) (W7 m ρ c (Proc.devRef .tc main_v59))) (W7 m ρ c (Proc.devRef .tc main_arg6)) = _
  rw [a2_7, row2_7, w3_7, biasLeakyRow_reshape]

theorem edge_8 (c : Dev nD) (r : Ref sig .tc) (h4 : ∀ w, Pipeline.arrRef spec0 w ≠ r) (h5 : r ∉ w1)
    (h6 : ∀ w, Pipeline.arrRef spec1 w ≠ r) (h7 : r ∉ w2) (h8 : ∀ w, Pipeline.arrRef spec2 w ≠ r) :
    W8 m ρ c (Proc.devRef .tc r) = W3 m ρ c (Proc.devRef .tc r) :=
  (keep8 m ρ c r h8).trans ((keep7 m ρ c r h7).trans ((keep6 m ρ c r h6).trans ((keep5 m ρ c r h5).trans (keep4 m ρ c r h4))))

theorem a3_9 (c : Dev nD) : W9 m ρ c (Proc.devRef .tc main_v73) = (agg (srcOf (m ((c : Thread nD τ).loc main_arg1))) (dstOf (m ((c : Thread nD τ).loc main_arg1))) (normOf (m ((c : Thread nD τ).loc main_arg1))) (matProd (biasLeaky (agg (srcOf (m ((c : Thread nD τ).loc main_arg1))) (dstOf (m ((c : Thread nD τ).loc main_arg1))) (normOf (m ((c : Thread nD τ).loc main_arg1))) (matProd (biasLeaky (agg (srcOf (m ((c : Thread nD τ).loc main_arg1))) (dstOf (m ((c : Thread nD τ).loc main_arg1))) (normOf (m ((c : Thread nD τ).loc main_arg1))) (matProd (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6)))) := by
  show after hostOps3 (W8 m ρ c) (Proc.devRef .tc main_v73) = _
  rw [agg3_of,
    (edge_8 m ρ c main_v3 (by decide) (by decide) (by decide) (by decide) (by decide)).trans (src3 m ρ c),
    (edge_8 m ρ c main_v6 (by decide) (by decide) (by decide) (by decide) (by decide)).trans (dst3 m ρ c),
    (edge_8 m ρ c main_v29 (by decide) (by decide) (by decide) (by decide) (by decide)).trans (norm3 m ρ c),
    h3_8]

theorem row3_9 (c : Dev nD) : W9 m ρ c (Proc.devRef .tc main_v74) = shapeCast S1x64 (m ((c : Thread nD τ).loc main_arg7)) shapeCasts_S64_S1x64 := by
  show after hostOps3 (W8 m ρ c) (Proc.devRef .tc main_v74) = _
  rw [row3_of, (edge_8 m ρ c main_arg7 (by decide) (by decide) (by decide) (by decide) (by decide)).trans
    (launch3 m ρ c main_arg7 (by decide) (by decide) (by decide))]

/-! ## The result -/

/-- The result buffer ends at the three-layer graph convolution of the argument arrays. -/
theorem result_eq (c : Dev nD) : W10 m ρ c (Proc.devRef .tc main_v75)
    = gcnOut (m ((c : Thread nD τ).loc main_arg1)) (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (W10_arr m ρ c 2).trans ((KReg3.final (V9 m ρ) c).trans ?_)
  show addBiasRow (W9 m ρ c (Proc.devRef .tc main_v73)) (W9 m ρ c (Proc.devRef .tc main_v74)) = _
  rw [a3_9, row3_9, addBiasRow_reshape]
  rfl

end Cert.KernelIdeal.KFold

end
-- ==== Proof.RefRun.lean ====
/-
  The whole-array program, read as one straight line of array operations.

  Its text calls three small functions (an elementwise choice, and the leaky rectifier, which calls the choice again);
  written out at their calls the program is 116 array operations in a row, each reading buffers written earlier and
  writing one buffer of its own. Such a line always terminates, and every buffer ends at the value the operations
  compute for it from the argument arrays. The line is kept in nine pieces: three for the edge indices and weights,
  then two per layer (product and aggregation; bias and rectifier).
-/
import proofs.«161881_j2370821947614_1_alg».proof.ReferenceIdeal
import proofs.«161881_j2370821947614_1_alg».proof.Proof.Gen.ReferenceIdeal
import Idealize.ShloMosaic.Lib.StableHlo.Run

noncomputable section

namespace Cert.ReferenceIdeal.RefRun

open Idealize.ShloMosaic Idealize.ShloMosaic.StableHlo Idealize.SL.Sem
open Cert.ReferenceIdeal Cert.ReferenceIdeal.Facts₀

variable {F : FTy → Type} [FloatOps F]

/-- The edge indices, the degrees and deg^(-1/2). -/
abbrev opsA0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32) ]

/-- The choice that puts zero where the degree is not positive. -/
abbrev opsA1 : List (HloOp τ sig (Elt F)) :=
  [ StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v13 : StableHlo.TRef sig ⟨S100000, .f32⟩) main_call0.v1 main_call0.v2 select ]

/-- The edge weights. -/
abbrev opsA2 : List (HloOp τ sig (Elt F)) :=
  [ StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v22 (broadcastInDim S1700000 ![] bcast_S_S1700000 : (⟨S_, .i32⟩ : BufTy).Contents (Elt F) → (⟨S1700000, .i32⟩ : BufTy).Contents (Elt F)),
    StableHlo.binary main_v6 main_v22 main_v23 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (addi : (⟨S1700000, .i32⟩ : BufTy).Contents (Elt F) → (⟨S1700000, .i32⟩ : BufTy).Contents (Elt F) → (⟨S1700000, .i32⟩ : BufTy).Contents (Elt F)),
    StableHlo.ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v26 main_v27 (broadcastInDim S1700000x1 ![0] bcast_S1700000_S1700000x1_0 : (⟨S1700000, .i32⟩ : BufTy).Contents (Elt F) → (⟨S1700000x1, .i32⟩ : BufTy).Contents (Elt F)),
    StableHlo.binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v28 main_v29 (mulf : (⟨S1700000, .f32⟩ : BufTy).Contents (Elt F) → (⟨S1700000, .f32⟩ : BufTy).Contents (Elt F) → (⟨S1700000, .f32⟩ : BufTy).Contents (Elt F)) ]

/-- Layer 1: product and aggregation. -/
abbrev opsB0 : List (HloOp τ sig (Elt F)) :=
  [ StableHlo.binary main_arg0 main_arg2 main_v30 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v3 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v29 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    StableHlo.nullary main_cst_8 (constant S_ .f32 0x00000000#32),
    StableHlo.unary main_cst_8 main_v41 (broadcastInDim S100000x64 ![] bcast_S_S100000x64 : (⟨S_, .f32⟩ : BufTy).Contents (Elt F) → (⟨S100000x64, .f32⟩ : BufTy).Contents (Elt F)),
    StableHlo.unary main_v6 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Layer 1: bias and rectifier. -/
abbrev opsB1 : List (HloOp τ sig (Elt F)) :=
  [ StableHlo.unary main_arg3 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v45 main_v46 (addf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3C23D70A#32),
    StableHlo.TRef.nullary main_call1.cst (constant S_ .f32 0x00000000#32),
    StableHlo.TRef.unary main_call1.cst main_call1.v0 (broadcastInDim S100000x64 ![] bcast_S_S100000x64),
    StableHlo.TRef.binary (.of main_v46 : StableHlo.TRef sig ⟨S100000x64, .f32⟩) main_call1.v0 main_call1.v1 (cmpf .oge),
    StableHlo.TRef.unary (.of main_cst_9 : StableHlo.TRef sig ⟨S_, .f32⟩) main_call1.v2 id,
    StableHlo.TRef.unary main_call1.v2 main_call1.v3 (broadcastInDim S100000x64 ![] bcast_S_S100000x64),
    StableHlo.TRef.binary main_call1.v3 (.of main_v46 : StableHlo.TRef sig ⟨S100000x64, .f32⟩) main_call1.v4 mulf,
    StableHlo.TRef.ternary main_call1.v1 (.of main_v46 : StableHlo.TRef sig ⟨S100000x64, .f32⟩) main_call1.v4 main_call1.call0.v0 select ]

/-- Layer 2: product and aggregation. -/
abbrev opsC0 : List (HloOp τ sig (Elt F)) :=
  [ StableHlo.binary main_v47 main_arg4 main_v48 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_10 (constantI S_ 32 0#32),
    StableHlo.unary main_c_10 main_v49 (broadcastInDim S1700000 ![] bcast_S_S1700000 : (⟨S_, .i32⟩ : BufTy).Contents (Elt F) → (⟨S1700000, .i32⟩ : BufTy).Contents (Elt F)),
    StableHlo.binary main_v3 main_v49 main_v50 (cmpi .slt : (⟨S1700000, .i32⟩ : BufTy).Contents (Elt F) → (⟨S1700000, .i32⟩ : BufTy).Contents (Elt F) → (⟨S1700000, .i1⟩ : BufTy).Contents (Elt F)),
    StableHlo.nullary main_c_11 (constantI S_ 32 100000#32),
    StableHlo.unary main_c_11 main_v51 (broadcastInDim S1700000 ![] bcast_S_S1700000 : (⟨S_, .i32⟩ : BufTy).Contents (Elt F) → (⟨S1700000, .i32⟩ : BufTy).Contents (Elt F)),
    StableHlo.binary main_v3 main_v51 main_v52 (addi : (⟨S1700000, .i32⟩ : BufTy).Contents (Elt F) → (⟨S1700000, .i32⟩ : BufTy).Contents (Elt F) → (⟨S1700000, .i32⟩ : BufTy).Contents (Elt F)),
    StableHlo.ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v53 main_v54 (broadcastInDim S1700000x1 ![0] bcast_S1700000_S1700000x1_0 : (⟨S1700000, .i32⟩ : BufTy).Contents (Elt F) → (⟨S1700000x1, .i32⟩ : BufTy).Contents (Elt F)),
    StableHlo.binary main_v48 main_v54 main_v55 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v29 main_v56 (broadcastInDim S1700000x1 ![0] bcast_S1700000_S1700000x1_0 : (⟨S1700000, .f32⟩ : BufTy).Contents (Elt F) → (⟨S1700000x1, .f32⟩ : BufTy).Contents (Elt F)),
    StableHlo.unary main_v56 main_v57 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v55 main_v57 main_v58 (mulf : (⟨S1700000x64, .f32⟩ : BufTy).Contents (Elt F) → (⟨S1700000x64, .f32⟩ : BufTy).Contents (Elt F) → (⟨S1700000x64, .f32⟩ : BufTy).Contents (Elt F)),
    StableHlo.nullary main_cst_12 (constant S_ .f32 0x00000000#32),
    StableHlo.unary main_cst_12 main_v59 (broadcastInDim S100000x64 ![] bcast_S_S100000x64 : (⟨S_, .f32⟩ : BufTy).Contents (Elt F) → (⟨S100000x64, .f32⟩ : BufTy).Contents (Elt F)),
    StableHlo.unary main_v6 main_v60 (broadcastInDim S1700000x1 ![0] bcast_S1700000_S1700000x1_0 : (⟨S1700000, .i32⟩ : BufTy).Contents (Elt F) → (⟨S1700000x1, .i32⟩ : BufTy).Contents (Elt F)),
    StableHlo.ternary main_v59 main_v60 main_v58 main_v61 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Layer 2: bias and rectifier. -/
abbrev opsC1 : List (HloOp τ sig (Elt F)) :=
  [ StableHlo.unary main_arg5 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S100000x64 ![0, 1] bcast_S1x64_S100000x64_0_1 : (⟨S1x64, .f32⟩ : BufTy).Contents (Elt F) → (⟨S100000x64, .f32⟩ : BufTy).Contents (Elt F)),
    StableHlo.binary main_v61 main_v63 main_v64 (addf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3C23D70A#32),
    StableHlo.TRef.nullary main_call2.cst (constant S_ .f32 0x00000000#32),
    StableHlo.TRef.unary main_call2.cst main_call2.v0 (broadcastInDim S100000x64 ![] bcast_S_S100000x64),
    StableHlo.TRef.binary (.of main_v64 : StableHlo.TRef sig ⟨S100000x64, .f32⟩) main_call2.v0 main_call2.v1 (cmpf .oge),
    StableHlo.TRef.unary (.of main_cst_13 : StableHlo.TRef sig ⟨S_, .f32⟩) main_call2.v2 id,
    StableHlo.TRef.unary main_call2.v2 main_call2.v3 (broadcastInDim S100000x64 ![] bcast_S_S100000x64),
    StableHlo.TRef.binary main_call2.v3 (.of main_v64 : StableHlo.TRef sig ⟨S100000x64, .f32⟩) main_call2.v4 mulf,
    StableHlo.TRef.ternary main_call2.v1 (.of main_v64 : StableHlo.TRef sig ⟨S100000x64, .f32⟩) main_call2.v4 main_call2.call0.v0 select ]

/-- Layer 3: product and aggregation. -/
abbrev opsD0 : List (HloOp τ sig (Elt F)) :=
  [ StableHlo.binary main_v65 main_arg6 main_v66 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_14 (constantI S_ 32 0#32),
    StableHlo.unary main_c_14 main_v67 (broadcastInDim S1700000 ![] bcast_S_S1700000 : (⟨S_, .i32⟩ : BufTy).Contents (Elt F) → (⟨S1700000, .i32⟩ : BufTy).Contents (Elt F)),
    StableHlo.binary main_v3 main_v67 main_v68 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v69 (broadcastInDim S1700000 ![] bcast_S_S1700000 : (⟨S_, .i32⟩ : BufTy).Contents (Elt F) → (⟨S1700000, .i32⟩ : BufTy).Contents (Elt F)),
    StableHlo.binary main_v3 main_v69 main_v70 (addi : (⟨S1700000, .i32⟩ : BufTy).Contents (Elt F) → (⟨S1700000, .i32⟩ : BufTy).Contents (Elt F) → (⟨S1700000, .i32⟩ : BufTy).Contents (Elt F)),
    StableHlo.ternary main_v68 main_v70 main_v3 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v71 main_v72 (broadcastInDim S1700000x1 ![0] bcast_S1700000_S1700000x1_0 : (⟨S1700000, .i32⟩ : BufTy).Contents (Elt F) → (⟨S1700000x1, .i32⟩ : BufTy).Contents (Elt F)),
    StableHlo.binary main_v66 main_v72 main_v73 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v29 main_v74 (broadcastInDim S1700000x1 ![0] bcast_S1700000_S1700000x1_0 : (⟨S1700000, .f32⟩ : BufTy).Contents (Elt F) → (⟨S1700000x1, .f32⟩ : BufTy).Contents (Elt F)),
    StableHlo.unary main_v74 main_v75 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v73 main_v75 main_v76 (mulf : (⟨S1700000x64, .f32⟩ : BufTy).Contents (Elt F) → (⟨S1700000x64, .f32⟩ : BufTy).Contents (Elt F) → (⟨S1700000x64, .f32⟩ : BufTy).Contents (Elt F)),
    StableHlo.nullary main_cst_16 (constant S_ .f32 0x00000000#32),
    StableHlo.unary main_cst_16 main_v77 (broadcastInDim S100000x64 ![] bcast_S_S100000x64 : (⟨S_, .f32⟩ : BufTy).Contents (Elt F) → (⟨S100000x64, .f32⟩ : BufTy).Contents (Elt F)),
    StableHlo.unary main_v6 main_v78 (broadcastInDim S1700000x1 ![0] bcast_S1700000_S1700000x1_0 : (⟨S1700000, .i32⟩ : BufTy).Contents (Elt F) → (⟨S1700000x1, .i32⟩ : BufTy).Contents (Elt F)),
    StableHlo.ternary main_v77 main_v78 main_v76 main_v79 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Layer 3: bias. -/
abbrev opsD1 : List (HloOp τ sig (Elt F)) :=
  [ StableHlo.unary main_arg7 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S100000x64 ![0, 1] bcast_S1x64_S100000x64_0_1 : (⟨S1x64, .f32⟩ : BufTy).Contents (Elt F) → (⟨S100000x64, .f32⟩ : BufTy).Contents (Elt F)),
    StableHlo.binary main_v79 main_v81 main_v82 (addf : (⟨S100000x64, .f32⟩ : BufTy).Contents (Elt F) → (⟨S100000x64, .f32⟩ : BufTy).Contents (Elt F) → (⟨S100000x64, .f32⟩ : BufTy).Contents (Elt F)) ]

/-- The first sixty statements. -/
abbrev opsP0 : List (HloOp τ sig (Elt F)) := opsA0 ++ (opsA1 ++ (opsA2 ++ (opsB0 ++ (opsB1))))
/-- The remaining statements. -/
abbrev opsP1 : List (HloOp τ sig (Elt F)) := opsC0 ++ (opsC1 ++ (opsD0 ++ (opsD1)))
/-- The whole line. -/
abbrev ops : List (HloOp τ sig (Elt F)) := opsP0 ++ opsP1

set_option maxRecDepth 16384 in
set_option maxHeartbeats 4000000 in
/-- The first sixty statements are the first five pieces run one after the other. -/
theorem part0_eq (c : Dev nD) : main_part0 (F := F) c = seq opsP0 := rfl

set_option maxRecDepth 16384 in
set_option maxHeartbeats 4000000 in
/-- The remaining statements are the last four pieces. -/
theorem part1_eq (c : Dev nD) : main_part1 (F := F) c = seq opsP1 := rfl

/-- The program is the line. -/
theorem main_eq (c : Dev nD) : main (F := F) c = seq ops := by
  show (main_part0 (F := F) c >>= fun _ => main_part1 (F := F) c) = _
  rw [part0_eq, part1_eq, ← seq_append]

theorem scopedRefs_eq : (Finset.univ.filter fun b : Ref sig .tc => b.isScoped) = ∅ := by decide
theorem scopedSems_eq : (Finset.univ.filter fun sm : SemLoc sig => sm.isScoped .tc) = ∅ := by decide

theorem opsA0_sub : (opsA0 : List (HloOp τ sig (Elt F))).Forall fun op => op.bufs ⊆ tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub ..⟩
theorem opsA0_fresh : ∀ op ∈ (opsA0 : List (HloOp τ sig (Elt F))), op.fresh = ∅ := by
  intro _ h; (repeat (cases h with | head => rfl | tail _ h => ?_)); exact nomatch h
theorem opsA1_sub : (opsA1 : List (HloOp τ sig (Elt F))).Forall fun op => op.bufs ⊆ tcRefs τ sig :=
  ⟨StableHlo.unary_bufs_sub .., StableHlo.unary_bufs_sub .., StableHlo.ternary_bufs_sub ..⟩
theorem opsA1_fresh : ∀ op ∈ (opsA1 : List (HloOp τ sig (Elt F))), op.fresh = ∅ := by
  intro _ h; (repeat (cases h with | head => rfl | tail _ h => ?_)); exact nomatch h
theorem opsA2_sub : (opsA2 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem opsA2_fresh : ∀ op ∈ (opsA2 : List (HloOp τ sig (Elt F))), op.fresh = ∅ := by
  intro _ h; (repeat (cases h with | head => rfl | tail _ h => ?_)); exact nomatch h
theorem opsB0_sub : (opsB0 : List (HloOp τ sig (Elt F))).Forall fun op => op.bufs ⊆ tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩
theorem opsB0_fresh : ∀ op ∈ (opsB0 : List (HloOp τ sig (Elt F))), op.fresh = ∅ := by
  intro _ h; (repeat (cases h with | head => rfl | tail _ h => ?_)); exact nomatch h
theorem opsB1_sub : (opsB1 : List (HloOp τ sig (Elt F))).Forall fun op => op.bufs ⊆ tcRefs τ sig :=
  ⟨StableHlo.unary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
theorem opsB1_fresh : ∀ op ∈ (opsB1 : List (HloOp τ sig (Elt F))), op.fresh = ∅ := by
  intro _ h; (repeat (cases h with | head => rfl | tail _ h => ?_)); exact nomatch h
theorem opsC0_sub : (opsC0 : List (HloOp τ sig (Elt F))).Forall fun op => op.bufs ⊆ tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩
theorem opsC0_fresh : ∀ op ∈ (opsC0 : List (HloOp τ sig (Elt F))), op.fresh = ∅ := by
  intro _ h; (repeat (cases h with | head => rfl | tail _ h => ?_)); exact nomatch h
theorem opsC1_sub : (opsC1 : List (HloOp τ sig (Elt F))).Forall fun op => op.bufs ⊆ tcRefs τ sig :=
  ⟨StableHlo.unary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
theorem opsC1_fresh : ∀ op ∈ (opsC1 : List (HloOp τ sig (Elt F))), op.fresh = ∅ := by
  intro _ h; (repeat (cases h with | head => rfl | tail _ h => ?_)); exact nomatch h
theorem opsD0_sub : (opsD0 : List (HloOp τ sig (Elt F))).Forall fun op => op.bufs ⊆ tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩
theorem opsD0_fresh : ∀ op ∈ (opsD0 : List (HloOp τ sig (Elt F))), op.fresh = ∅ := by
  intro _ h; (repeat (cases h with | head => rfl | tail _ h => ?_)); exact nomatch h
theorem opsD1_sub : (opsD1 : List (HloOp τ sig (Elt F))).Forall fun op => op.bufs ⊆ tcRefs τ sig :=
  ⟨StableHlo.unary_bufs_sub .., StableHlo.unary_bufs_sub .., StableHlo.binary_bufs_sub ..⟩
theorem opsD1_fresh : ∀ op ∈ (opsD1 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig := by
  rw [List.forall_iff_forall_mem]
  intro op h
  simp only [ops, opsP0, opsP1, List.mem_append] at h
  rcases h with (h | h | h | h | h) | (h | h | h | h)
  exacts [List.forall_iff_forall_mem.mp opsA0_sub op h, List.forall_iff_forall_mem.mp opsA1_sub op h, List.forall_iff_forall_mem.mp opsA2_sub op h, List.forall_iff_forall_mem.mp opsB0_sub op h, List.forall_iff_forall_mem.mp opsB1_sub op h, List.forall_iff_forall_mem.mp opsC0_sub op h, List.forall_iff_forall_mem.mp opsC1_sub op h, List.forall_iff_forall_mem.mp opsD0_sub op h, List.forall_iff_forall_mem.mp opsD1_sub op h]

theorem ops_fresh : ∀ op ∈ (ops : List (HloOp τ sig (Elt F))), op.fresh = ∅ := by
  intro op h
  simp only [ops, opsP0, opsP1, List.mem_append] at h
  rcases h with (h | h | h | h | h) | (h | h | h | h)
  exacts [opsA0_fresh op h, opsA1_fresh op h, opsA2_fresh op h, opsB0_fresh op h, opsB1_fresh op h, opsC0_fresh op h, opsC1_fresh op h, opsD0_fresh op h, opsD1_fresh op h]

/-- From any memory with zero counters every weakly fair execution of the program terminates, and every buffer ends at
    the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefStages.lean ====
/-
  The whole-array program's nine pieces, read as values.

  Each piece is read from arbitrary buffer contents: the buffer it writes last holds a named function of the buffers it
  read. The edge pieces and the aggregation steps are the operations of the model's statement themselves. A layer's
  matrix product is the sum over the shared index; a bias broadcast to every row and added, and the rectifier built
  from a comparison, a product and a choice, are read entry by entry.
-/
import proofs.«161881_j2370821947614_1_alg».proof.Proof.RefRun
import proofs.«161881_j2370821947614_1_alg».proof.Proof.Spec
import Idealize.ShloMosaic.Lib.Pipeline.Value
import Idealize.ShloMosaic.Lib.ValueIdx

set_option maxRecDepth 16384

noncomputable section

namespace Cert.ReferenceIdeal.RefStages

open Idealize.ShloMosaic Idealize.ShloMosaic.StableHlo Idealize.SL.Sem
open Idealize.ShloMosaic.ValueIdx Idealize.ShloMosaic.MatProd
open Cert.ReferenceIdeal Cert.ReferenceIdeal.Facts₀ Cert.ReferenceIdeal.RefRun
open Cert.Gcn

/-! ## What each piece writes -/

/-- The buffers the operations of `opsA0` write. -/
abbrev wA0 : List (Ref sig .tc) := [main_v0, main_v1, main_v2, main_v3, main_v4, main_v5, main_v6, main_cst, main_v7, main_cst_0, main_v8, main_v9, main_v10, main_cst_1, main_v11, main_v12, main_v13, main_cst_2]
theorem opsA0_writes : (opsA0 : List (HloOp τ sig (Elt Ideal))).Forall fun op => op.writes ⊆ (wA0.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- The buffers the operations of `opsA1` write. -/
abbrev wA1 : List (Ref sig .tc) := [main_call0_v0, main_call0_v1, main_v14]
theorem opsA1_writes : (opsA1 : List (HloOp τ sig (Elt Ideal))).Forall fun op => op.writes ⊆ (wA1.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- The buffers the operations of `opsA2` write. -/
abbrev wA2 : List (Ref sig .tc) := [main_c, main_v15, main_v16, main_c_3, main_v17, main_v18, main_v19, main_v20, main_v21, main_c_4, main_v22, main_v23, main_c_5, main_v24, main_v25, main_v26, main_v27, main_v28, main_v29]
theorem opsA2_writes : (opsA2 : List (HloOp τ sig (Elt Ideal))).Forall fun op => op.writes ⊆ (wA2.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- The buffers the operations of `opsB0` write. -/
abbrev wB0 : List (Ref sig .tc) := [main_v30, main_c_6, main_v31, main_v32, main_c_7, main_v33, main_v34, main_v35, main_v36, main_v37, main_v38, main_v39, main_v40, main_cst_8, main_v41, main_v42, main_v43]
theorem opsB0_writes : (opsB0 : List (HloOp τ sig (Elt Ideal))).Forall fun op => op.writes ⊆ (wB0.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- The buffers the operations of `opsB1` write. -/
abbrev wB1 : List (Ref sig .tc) := [main_v44, main_v45, main_v46, main_cst_9, main_call1_cst, main_call1_v0, main_call1_v1, main_call1_v2, main_call1_v3, main_call1_v4, main_v47]
theorem opsB1_writes : (opsB1 : List (HloOp τ sig (Elt Ideal))).Forall fun op => op.writes ⊆ (wB1.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- The buffers the operations of `opsC0` write. -/
abbrev wC0 : List (Ref sig .tc) := [main_v48, main_c_10, main_v49, main_v50, main_c_11, main_v51, main_v52, main_v53, main_v54, main_v55, main_v56, main_v57, main_v58, main_cst_12, main_v59, main_v60, main_v61]
theorem opsC0_writes : (opsC0 : List (HloOp τ sig (Elt Ideal))).Forall fun op => op.writes ⊆ (wC0.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- The buffers the operations of `opsC1` write. -/
abbrev wC1 : List (Ref sig .tc) := [main_v62, main_v63, main_v64, main_cst_13, main_call2_cst, main_call2_v0, main_call2_v1, main_call2_v2, main_call2_v3, main_call2_v4, main_v65]
theorem opsC1_writes : (opsC1 : List (HloOp τ sig (Elt Ideal))).Forall fun op => op.writes ⊆ (wC1.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- The buffers the operations of `opsD0` write. -/
abbrev wD0 : List (Ref sig .tc) := [main_v66, main_c_14, main_v67, main_v68, main_c_15, main_v69, main_v70, main_v71, main_v72, main_v73, main_v74, main_v75, main_v76, main_cst_16, main_v77, main_v78, main_v79]
theorem opsD0_writes : (opsD0 : List (HloOp τ sig (Elt Ideal))).Forall fun op => op.writes ⊆ (wD0.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- The buffers the operations of `opsD1` write. -/
abbrev wD1 : List (Ref sig .tc) := [main_v80, main_v81, main_v82]
theorem opsD1_writes : (opsD1 : List (HloOp τ sig (Elt Ideal))).Forall fun op => op.writes ⊆ (wD1.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-! ## Two pieces run one after the other -/

theorem after_app {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-! ## The dense parts, entry by entry -/

/-- A bias broadcast to every row. -/
def rowsOf (b : Bias) : Feat :=
  broadcastInDim S100000x64 ![0, 1] bcast_S1x64_S100000x64_0_1 (broadcastInDim S1x64 ![1] bcast_S64_S1x64_1 b)

/-- The leaky rectifier on a whole array: where an entry is at least zero the entry, elsewhere the slope times it. -/
def leakyVec (a : Feat) : Feat :=
  select (cmpf .oge a (broadcastInDim S100000x64 ![] bcast_S_S100000x64 (constant (F := Ideal) S_ .f32 0x00000000#32))) a
    (mulf (broadcastInDim S100000x64 ![] bcast_S_S100000x64 (constant (F := Ideal) S_ .f32 0x3C23D70A#32)) a)

/-- Entry (i, k) of the broadcast bias is entry k of the bias. -/
theorem rowsOf_apply (b : Bias) (i : Fin 100000) (k : Fin 64) : rowsOf b (ix2 i k) = b (ix1 k) := by
  unfold rowsOf
  rw [broadcastInDim_apply _ _ _ (ix2 i k) (ix2 (0 : Fin 1) k) (fun a => by
    match a with
    | ⟨0, _⟩ => rfl
    | ⟨1, _⟩ => rfl)]
  exact broadcastInDim_apply _ _ b (ix2 (0 : Fin 1) k) (ix1 k) (fun a => by
    match a with
    | ⟨0, _⟩ => rfl)

/-- Bias, then rectifier, on whole arrays is the entrywise statement. -/
theorem leakyVec_rows (a : Feat) (b : Bias) : leakyVec (addf (F := Ideal) (φ := .f32) a (rowsOf b)) = biasLeaky a b := by
  funext j
  obtain ⟨i, k, rfl⟩ : ∃ (i : Fin 100000) (k : Fin 64), j = ix2 i k := ⟨j 0, j 1, eq_ix2 j⟩
  show leaky (a (ix2 i k) + rowsOf b (ix2 i k)) = leaky (a (ix2 i k) + b (ix1 k))
  rw [rowsOf_apply]

/-- Bias on whole arrays is the entrywise statement. -/
theorem addf_rows (a : Feat) (b : Bias) : addf (F := Ideal) (φ := .f32) a (rowsOf b) = addBias a b := by
  funext j
  obtain ⟨i, k, rfl⟩ : ∃ (i : Fin 100000) (k : Fin 64), j = ix2 i k := ⟨j 0, j 1, eq_ix2 j⟩
  show a (ix2 i k) + rowsOf b (ix2 i k) = a (ix2 i k) + b (ix1 k)
  rw [rowsOf_apply]

/-- The program's matrix product has a plain product's dimension numbers. -/
theorem plain : DotPlain.IsPlain dot_S100000x64_S64x64_S100000x64_1_0_0_1_n_n := ⟨rfl, rfl, rfl, rfl, rfl, rfl⟩

/-- The program's matrix product is the sum over the shared index. -/
theorem dot_eq (l : Feat) (r : Wt) :
    Host.dotGeneral (F := Ideal) dot_S100000x64_S64x64_S100000x64_1_0_0_1_n_n none l r = matProd l r :=
  MatProd.dotGeneral_eq plain none l r

/-! ## What each piece computes, from any contents -/

variable (U : Valuation τ sig (Elt Ideal))

/-- The source of every edge, from the given edges. -/
theorem src_of : after opsA0 U (Proc.devRef .tc main_v3) = srcOf (U (Proc.devRef .tc main_arg1)) := by
  dsimp only [opsA0]
  after_results
  rfl

/-- The destination of every edge, from the given edges. -/
theorem dst_of : after opsA0 U (Proc.devRef .tc main_v6) = dstOf (U (Proc.devRef .tc main_arg1)) := by
  dsimp only [opsA0]
  after_results
  rfl

/-- Which nodes have a positive degree. -/
theorem degpos_of : after opsA0 U (Proc.devRef .tc main_v12)
    = cmpf .ogt (degOf (dstOf (U (Proc.devRef .tc main_arg1))))
        (broadcastInDim S100000 ![] bcast_S_S100000 (constant (F := Ideal) S_ .f32 0x00000000#32)) := by
  dsimp only [opsA0]
  after_results
  rfl

/-- deg^(-1/2) at every node. -/
theorem rsqrt_of : after opsA0 U (Proc.devRef .tc main_v13)
    = Host.rsqrt (F := Ideal) (degOf (dstOf (U (Proc.devRef .tc main_arg1)))) := by
  dsimp only [opsA0]
  after_results
  rfl

/-- The zero that stands for deg^(-1/2) at a node of degree zero. -/
theorem zero_of : after opsA0 U (Proc.devRef .tc main_cst_2) = constant (F := Ideal) S_ .f32 0x00000000#32 := by
  dsimp only [opsA0]
  after_results

/-- The choice between the two. -/
theorem dinv_of : after opsA1 U (Proc.devRef .tc main_v14)
    = select (U (Proc.devRef .tc main_v12)) (U (Proc.devRef .tc main_v13))
        (broadcastInDim S100000 ![] bcast_S_S100000 (U (Proc.devRef .tc main_cst_2))) := by
  dsimp only [opsA1]
  after_results
  rfl

set_option maxHeartbeats 4000000 in
/-- The weight of every edge, from deg^(-1/2) and the two ends. -/
theorem norm_of : after opsA2 U (Proc.devRef .tc main_v29)
    = mulf (F := Ideal) (φ := .f32)
        (Host.gather gather_S100000_S1700000x1_S1700000_n_0_n_n_0_1_1 (U (Proc.devRef .tc main_v14) : FVec Ideal S100000 .f32)
          (broadcastInDim S1700000x1 ![0] bcast_S1700000_S1700000x1_0 (wrapIdx (U (Proc.devRef .tc main_v3)))))
        (Host.gather gather_S100000_S1700000x1_S1700000_n_0_n_n_0_1_1 (U (Proc.devRef .tc main_v14) : FVec Ideal S100000 .f32)
          (broadcastInDim S1700000x1 ![0] bcast_S1700000_S1700000x1_0 (wrapIdx (U (Proc.devRef .tc main_v6))))) := by
  dsimp only [opsA2]
  after_results_simp
  rfl

set_option maxHeartbeats 4000000 in
/-- Layer 1's product, aggregated. -/
theorem agg1_of : after opsB0 U (Proc.devRef .tc main_v43)
    = agg (U (Proc.devRef .tc main_v3)) (U (Proc.devRef .tc main_v6)) (U (Proc.devRef .tc main_v29))
        (Host.dotGeneral (F := Ideal) (φ₁ := .f32) (φ₂ := .f32) dot_S100000x64_S64x64_S100000x64_1_0_0_1_n_n none
          (U (Proc.devRef .tc main_arg0) : FVec Ideal S100000x64 .f32) (U (Proc.devRef .tc main_arg2) : FVec Ideal S64x64 .f32)) := by
  dsimp only [opsB0]
  after_results_simp
  rfl

set_option maxHeartbeats 4000000 in
/-- Layer 1's bias and rectifier. -/
theorem act1_of : after opsB1 U (Proc.devRef .tc main_v47) = leakyVec (addf (F := Ideal) (φ := .f32) (U (Proc.devRef .tc main_v43)) (rowsOf (U (Proc.devRef .tc main_arg3)))) := by
  dsimp only [opsB1]
  after_results_simp
  rfl

set_option maxHeartbeats 4000000 in
/-- Layer 2's product, aggregated. -/
theorem agg2_of : after opsC0 U (Proc.devRef .tc main_v61)
    = agg (U (Proc.devRef .tc main_v3)) (U (Proc.devRef .tc main_v6)) (U (Proc.devRef .tc main_v29))
        (Host.dotGeneral (F := Ideal) (φ₁ := .f32) (φ₂ := .f32) dot_S100000x64_S64x64_S100000x64_1_0_0_1_n_n none
          (U (Proc.devRef .tc main_v47) : FVec Ideal S100000x64 .f32) (U (Proc.devRef .tc main_arg4) : FVec Ideal S64x64 .f32)) := by
  dsimp only [opsC0]
  after_results_simp
  rfl

set_option maxHeartbeats 4000000 in
/-- Layer 2's bias and rectifier. -/
theorem act2_of : after opsC1 U (Proc.devRef .tc main_v65) = leakyVec (addf (F := Ideal) (φ := .f32) (U (Proc.devRef .tc main_v61)) (rowsOf (U (Proc.devRef .tc main_arg5)))) := by
  dsimp only [opsC1]
  after_results_simp
  rfl

set_option maxHeartbeats 4000000 in
/-- Layer 3's product, aggregated. -/
theorem agg3_of : after opsD0 U (Proc.devRef .tc main_v79)
    = agg (U (Proc.devRef .tc main_v3)) (U (Proc.devRef .tc main_v6)) (U (Proc.devRef .tc main_v29))
        (Host.dotGeneral (F := Ideal) (φ₁ := .f32) (φ₂ := .f32) dot_S100000x64_S64x64_S100000x64_1_0_0_1_n_n none
          (U (Proc.devRef .tc main_v65) : FVec Ideal S100000x64 .f32) (U (Proc.devRef .tc main_arg6) : FVec Ideal S64x64 .f32)) := by
  dsimp only [opsD0]
  after_results_simp
  rfl

/-- Layer 3's bias. -/
theorem bias3_of : after opsD1 U (Proc.devRef .tc main_v82) = addf (F := Ideal) (φ := .f32) (U (Proc.devRef .tc main_v79)) (rowsOf (U (Proc.devRef .tc main_arg7))) := by
  dsimp only [opsD1]
  after_results
  rfl

end Cert.ReferenceIdeal.RefStages

end
-- ==== Proof.RefFold.lean ====
/-
  The whole-array program's result as one function of its arguments.

  The buffer contents after each of the nine pieces are followed from the launch to the end: the edge sources,
  destinations and weights after the first three, then per layer the aggregated product and the rectified sum with the
  bias. No piece overwrites a buffer a later piece still reads, and none writes an argument. Put together, the result
  buffer ends at the three-layer graph convolution of the argument arrays, and the arguments end as launched.
-/
import proofs.«161881_j2370821947614_1_alg».proof.Proof.RefStages

set_option maxRecDepth 16384

noncomputable section

namespace Cert.ReferenceIdeal.RefFold

open Idealize.ShloMosaic Idealize.ShloMosaic.StableHlo Idealize.SL.Sem
open Idealize.ShloMosaic.ValueIdx Idealize.ShloMosaic.MatProd
open Cert.ReferenceIdeal Cert.ReferenceIdeal.RefRun Cert.ReferenceIdeal.RefStages
open Cert.Gcn

variable (m : (ℓ : Loc nD τ sig) → Buf (Elt Ideal) ℓ)

/-! ## The contents after each piece -/

abbrev U0 (c : Dev nD) : Valuation τ sig (Elt Ideal) := launchContents m c
abbrev U1 (c : Dev nD) : Valuation τ sig (Elt Ideal) := after opsA0 (U0 m c)
abbrev U2 (c : Dev nD) : Valuation τ sig (Elt Ideal) := after opsA1 (U1 m c)
abbrev U3 (c : Dev nD) : Valuation τ sig (Elt Ideal) := after opsA2 (U2 m c)
abbrev U4 (c : Dev nD) : Valuation τ sig (Elt Ideal) := after opsB0 (U3 m c)
abbrev U5 (c : Dev nD) : Valuation τ sig (Elt Ideal) := after opsB1 (U4 m c)
abbrev U6 (c : Dev nD) : Valuation τ sig (Elt Ideal) := after opsC0 (U5 m c)
abbrev U7 (c : Dev nD) : Valuation τ sig (Elt Ideal) := after opsC1 (U6 m c)
abbrev U8 (c : Dev nD) : Valuation τ sig (Elt Ideal) := after opsD0 (U7 m c)
abbrev U9 (c : Dev nD) : Valuation τ sig (Elt Ideal) := after opsD1 (U8 m c)

/-- The whole line's fold is the ninth of these. -/
theorem ops_fold (c : Dev nD) : after (ops (F := Ideal)) (launchContents m c) = U9 m c := by
  simp only [ops, opsP0, opsP1, after_app]

/-! ## A buffer a piece does not write keeps its contents -/

theorem keep1 (c : Dev nD) (r : Ref sig .tc) (h : r ∉ wA0) : U1 m c (Proc.devRef .tc r) = U0 m c (Proc.devRef .tc r) :=
  after_of_writes_sub opsA0 _ opsA0_writes h
theorem keep2 (c : Dev nD) (r : Ref sig .tc) (h : r ∉ wA1) : U2 m c (Proc.devRef .tc r) = U1 m c (Proc.devRef .tc r) :=
  after_of_writes_sub opsA1 _ opsA1_writes h
theorem keep3 (c : Dev nD) (r : Ref sig .tc) (h : r ∉ wA2) : U3 m c (Proc.devRef .tc r) = U2 m c (Proc.devRef .tc r) :=
  after_of_writes_sub opsA2 _ opsA2_writes h
theorem keep4 (c : Dev nD) (r : Ref sig .tc) (h : r ∉ wB0) : U4 m c (Proc.devRef .tc r) = U3 m c (Proc.devRef .tc r) :=
  after_of_writes_sub opsB0 _ opsB0_writes h
theorem keep5 (c : Dev nD) (r : Ref sig .tc) (h : r ∉ wB1) : U5 m c (Proc.devRef .tc r) = U4 m c (Proc.devRef .tc r) :=
  after_of_writes_sub opsB1 _ opsB1_writes h
theorem keep6 (c : Dev nD) (r : Ref sig .tc) (h : r ∉ wC0) : U6 m c (Proc.devRef .tc r) = U5 m c (Proc.devRef .tc r) :=
  after_of_writes_sub opsC0 _ opsC0_writes h
theorem keep7 (c : Dev nD) (r : Ref sig .tc) (h : r ∉ wC1) : U7 m c (Proc.devRef .tc r) = U6 m c (Proc.devRef .tc r) :=
  after_of_writes_sub opsC1 _ opsC1_writes h
theorem keep8 (c : Dev nD) (r : Ref sig .tc) (h : r ∉ wD0) : U8 m c (Proc.devRef .tc r) = U7 m c (Proc.devRef .tc r) :=
  after_of_writes_sub opsD0 _ opsD0_writes h
theorem keep9 (c : Dev nD) (r : Ref sig .tc) (h : r ∉ wD1) : U9 m c (Proc.devRef .tc r) = U8 m c (Proc.devRef .tc r) :=
  after_of_writes_sub opsD1 _ opsD1_writes h

theorem up3 (c : Dev nD) (r : Ref sig .tc) (h1 : r ∉ wA0) (h2 : r ∉ wA1) (h3 : r ∉ wA2) :
    U3 m c (Proc.devRef .tc r) = m ((c.tc : Thread nD τ).loc r) :=
  (keep3 m c r h3).trans ((keep2 m c r h2).trans ((keep1 m c r h1).trans rfl))
theorem up4 (c : Dev nD) (r : Ref sig .tc) (h1 : r ∉ wA0) (h2 : r ∉ wA1) (h3 : r ∉ wA2) (h4 : r ∉ wB0) :
    U4 m c (Proc.devRef .tc r) = m ((c.tc : Thread nD τ).loc r) := (keep4 m c r h4).trans (up3 m c r h1 h2 h3)
theorem up5 (c : Dev nD) (r : Ref sig .tc) (h1 : r ∉ wA0) (h2 : r ∉ wA1) (h3 : r ∉ wA2) (h4 : r ∉ wB0) (h5 : r ∉ wB1) :
    U5 m c (Proc.devRef .tc r) = m ((c.tc : Thread nD τ).loc r) := (keep5 m c r h5).trans (up4 m c r h1 h2 h3 h4)
theorem up6 (c : Dev nD) (r : Ref sig .tc) (h1 : r ∉ wA0) (h2 : r ∉ wA1) (h3 : r ∉ wA2) (h4 : r ∉ wB0) (h5 : r ∉ wB1)
    (h6 : r ∉ wC0) : U6 m c (Proc.devRef .tc r) = m ((c.tc : Thread nD τ).loc r) := (keep6 m c r h6).trans (up5 m c r h1 h2 h3 h4 h5)
theorem up7 (c : Dev nD) (r : Ref sig .tc) (h1 : r ∉ wA0) (h2 : r ∉ wA1) (h3 : r ∉ wA2) (h4 : r ∉ wB0) (h5 : r ∉ wB1)
    (h6 : r ∉ wC0) (h7 : r ∉ wC1) : U7 m c (Proc.devRef .tc r) = m ((c.tc : Thread nD τ).loc r) := (keep7 m c r h7).trans (up6 m c r h1 h2 h3 h4 h5 h6)
theorem up8 (c : Dev nD) (r : Ref sig .tc) (h1 : r ∉ wA0) (h2 : r ∉ wA1) (h3 : r ∉ wA2) (h4 : r ∉ wB0) (h5 : r ∉ wB1)
    (h6 : r ∉ wC0) (h7 : r ∉ wC1) (h8 : r ∉ wD0) : U8 m c (Proc.devRef .tc r) = m ((c.tc : Thread nD τ).loc r) :=
  (keep8 m c r h8).trans (up7 m c r h1 h2 h3 h4 h5 h6 h7)
theorem up9 (c : Dev nD) (r : Ref sig .tc) (h1 : r ∉ wA0) (h2 : r ∉ wA1) (h3 : r ∉ wA2) (h4 : r ∉ wB0) (h5 : r ∉ wB1)
    (h6 : r ∉ wC0) (h7 : r ∉ wC1) (h8 : r ∉ wD0) (h9 : r ∉ wD1) : U9 m c (Proc.devRef .tc r) = m ((c.tc : Thread nD τ).loc r) :=
  (keep9 m c r h9).trans (up8 m c r h1 h2 h3 h4 h5 h6 h7 h8)

/-- The edge arrays stay through layer 1. -/
theorem e5 (c : Dev nD) (r : Ref sig .tc) (h4 : r ∉ wB0) (h5 : r ∉ wB1) : U5 m c (Proc.devRef .tc r) = U3 m c (Proc.devRef .tc r) :=
  (keep5 m c r h5).trans (keep4 m c r h4)
/-- The edge arrays stay through layer 2. -/
theorem e7 (c : Dev nD) (r : Ref sig .tc) (h4 : r ∉ wB0) (h5 : r ∉ wB1) (h6 : r ∉ wC0) (h7 : r ∉ wC1) :
    U7 m c (Proc.devRef .tc r) = U3 m c (Proc.devRef .tc r) :=
  (keep7 m c r h7).trans ((keep6 m c r h6).trans (e5 m c r h4 h5))

/-! ## The edge arrays after the first three pieces -/

theorem src3 (c : Dev nD) : U3 m c (Proc.devRef .tc main_v3) = srcOf (m ((c.tc : Thread nD τ).loc main_arg1)) :=
  (keep3 m c main_v3 (by decide)).trans ((keep2 m c main_v3 (by decide)).trans (src_of (U0 m c)))

theorem dst3 (c : Dev nD) : U3 m c (Proc.devRef .tc main_v6) = dstOf (m ((c.tc : Thread nD τ).loc main_arg1)) :=
  (keep3 m c main_v6 (by decide)).trans ((keep2 m c main_v6 (by decide)).trans (dst_of (U0 m c)))

theorem norm3 (c : Dev nD) : U3 m c (Proc.devRef .tc main_v29) = normOf (m ((c.tc : Thread nD τ).loc main_arg1)) := by
  have h14 : U2 m c (Proc.devRef .tc main_v14) = dinvOf (dstOf (m ((c.tc : Thread nD τ).loc main_arg1))) := by
    show after opsA1 (U1 m c) (Proc.devRef .tc main_v14) = _
    rw [dinv_of, show U1 m c (Proc.devRef .tc main_v12) = _ from degpos_of (U0 m c),
      show U1 m c (Proc.devRef .tc main_v13) = _ from rsqrt_of (U0 m c),
      show U1 m c (Proc.devRef .tc main_cst_2) = _ from zero_of (U0 m c)]
    rfl
  have h3 : U2 m c (Proc.devRef .tc main_v3) = srcOf (m ((c.tc : Thread nD τ).loc main_arg1)) :=
    (keep2 m c main_v3 (by decide)).trans (src_of (U0 m c))
  have h6 : U2 m c (Proc.devRef .tc main_v6) = dstOf (m ((c.tc : Thread nD τ).loc main_arg1)) :=
    (keep2 m c main_v6 (by decide)).trans (dst_of (U0 m c))
  show after opsA2 (U2 m c) (Proc.devRef .tc main_v29) = _
  rw [norm_of, h14, h3, h6]
  rfl

/-! ## The layers -/

theorem a1_4 (c : Dev nD) : U4 m c (Proc.devRef .tc main_v43) = (agg (srcOf (m ((c.tc : Thread nD τ).loc main_arg1))) (dstOf (m ((c.tc : Thread nD τ).loc main_arg1))) (normOf (m ((c.tc : Thread nD τ).loc main_arg1))) (matProd (m ((c.tc : Thread nD τ).loc main_arg0)) (m ((c.tc : Thread nD τ).loc main_arg2)))) := by
  show after opsB0 (U3 m c) (Proc.devRef .tc main_v43) = _
  rw [agg1_of, src3, dst3, norm3, up3 m c main_arg0 (by decide) (by decide) (by decide), up3 m c main_arg2 (by decide) (by decide) (by decide), dot_eq]

theorem h1_5 (c : Dev nD) : U5 m c (Proc.devRef .tc main_v47) = biasLeaky (agg (srcOf (m ((c.tc : Thread nD τ).loc main_arg1))) (dstOf (m ((c.tc : Thread nD τ).loc main_arg1))) (normOf (m ((c.tc : Thread nD τ).loc main_arg1))) (matProd (m ((c.tc : Thread nD τ).loc main_arg0)) (m ((c.tc : Thread nD τ).loc main_arg2)))) (m ((c.tc : Thread nD τ).loc main_arg3)) := by
  show after opsB1 (U4 m c) (Proc.devRef .tc main_v47) = _
  rw [act1_of, a1_4, up4 m c main_arg3 (by decide) (by decide) (by decide) (by decide), leakyVec_rows]

theorem a2_6 (c : Dev nD) : U6 m c (Proc.devRef .tc main_v61) = (agg (srcOf (m ((c.tc : Thread nD τ).loc main_arg1))) (dstOf (m ((c.tc : Thread nD τ).loc main_arg1))) (normOf (m ((c.tc : Thread nD τ).loc main_arg1))) (matProd (biasLeaky (agg (srcOf (m ((c.tc : Thread nD τ).loc main_arg1))) (dstOf (m ((c.tc : Thread nD τ).loc main_arg1))) (normOf (m ((c.tc : Thread nD τ).loc main_arg1))) (matProd (m ((c.tc : Thread nD τ).loc main_arg0)) (m ((c.tc : Thread nD τ).loc main_arg2)))) (m ((c.tc : Thread nD τ).loc main_arg3))) (m ((c.tc : Thread nD τ).loc main_arg4)))) := by
  show after opsC0 (U5 m c) (Proc.devRef .tc main_v61) = _
  rw [agg2_of, (e5 m c main_v3 (by decide) (by decide)).trans (src3 m c), (e5 m c main_v6 (by decide) (by decide)).trans (dst3 m c),
    (e5 m c main_v29 (by decide) (by decide)).trans (norm3 m c), h1_5, up5 m c main_arg4 (by decide) (by decide) (by decide) (by decide) (by decide), dot_eq]

theorem h2_7 (c : Dev nD) : U7 m c (Proc.devRef .tc main_v65) = biasLeaky (agg (srcOf (m ((c.tc : Thread nD τ).loc main_arg1))) (dstOf (m ((c.tc : Thread nD τ).loc main_arg1))) (normOf (m ((c.tc : Thread nD τ).loc main_arg1))) (matProd (biasLeaky (agg (srcOf (m ((c.tc : Thread nD τ).loc main_arg1))) (dstOf (m ((c.tc : Thread nD τ).loc main_arg1))) (normOf (m ((c.tc : Thread nD τ).loc main_arg1))) (matProd (m ((c.tc : Thread nD τ).loc main_arg0)) (m ((c.tc : Thread nD τ).loc main_arg2)))) (m ((c.tc : Thread nD τ).loc main_arg3))) (m ((c.tc : Thread nD τ).loc main_arg4)))) (m ((c.tc : Thread nD τ).loc main_arg5)) := by
  show after opsC1 (U6 m c) (Proc.devRef .tc main_v65) = _
  rw [act2_of, a2_6, up6 m c main_arg5 (by decide) (by decide) (by decide) (by decide) (by decide) (by decide), leakyVec_rows]

theorem a3_8 (c : Dev nD) : U8 m c (Proc.devRef .tc main_v79) = (agg (srcOf (m ((c.tc : Thread nD τ).loc main_arg1))) (dstOf (m ((c.tc : Thread nD τ).loc main_arg1))) (normOf (m ((c.tc : Thread nD τ).loc main_arg1))) (matProd (biasLeaky (agg (srcOf (m ((c.tc : Thread nD τ).loc main_arg1))) (dstOf (m ((c.tc : Thread nD τ).loc main_arg1))) (normOf (m ((c.tc : Thread nD τ).loc main_arg1))) (matProd (biasLeaky (agg (srcOf (m ((c.tc : Thread nD τ).loc main_arg1))) (dstOf (m ((c.tc : Thread nD τ).loc main_arg1))) (normOf (m ((c.tc : Thread nD τ).loc main_arg1))) (matProd (m ((c.tc : Thread nD τ).loc main_arg0)) (m ((c.tc : Thread nD τ).loc main_arg2)))) (m ((c.tc : Thread nD τ).loc main_arg3))) (m ((c.tc : Thread nD τ).loc main_arg4)))) (m ((c.tc : Thread nD τ).loc main_arg5))) (m ((c.tc : Thread nD τ).loc main_arg6)))) := by
  show after opsD0 (U7 m c) (Proc.devRef .tc main_v79) = _
  rw [agg3_of, (e7 m c main_v3 (by decide) (by decide) (by decide) (by decide)).trans (src3 m c), (e7 m c main_v6 (by decide) (by decide) (by decide) (by decide)).trans (dst3 m c),
    (e7 m c main_v29 (by decide) (by decide) (by decide) (by decide)).trans (norm3 m c), h2_7, up7 m c main_arg6 (by decide) (by decide) (by decide) (by decide) (by decide) (by decide) (by decide), dot_eq]

/-- The result buffer ends at the three-layer graph convolution of the argument arrays. -/
theorem result_eq (c : Dev nD) : after (ops (F := Ideal)) (launchContents m c) (Proc.devRef .tc main_v82)
    = gcnOut (m ((c.tc : Thread nD τ).loc main_arg1)) (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := by
  rw [ops_fold]
  show after opsD1 (U8 m c) (Proc.devRef .tc main_v82) = _
  rw [bias3_of, a3_8, up8 m c main_arg7 (by decide) (by decide) (by decide) (by decide) (by decide) (by decide) (by decide) (by decide), addf_rows]
  rfl

/-- An argument ends as launched. -/
theorem arg_kept (c : Dev nD) (r : Ref sig .tc) (h1 : r ∉ wA0) (h2 : r ∉ wA1) (h3 : r ∉ wA2) (h4 : r ∉ wB0) (h5 : r ∉ wB1)
    (h6 : r ∉ wC0) (h7 : r ∉ wC1) (h8 : r ∉ wD0) (h9 : r ∉ wD1) :
    after (ops (F := Ideal)) (launchContents m c) (Proc.devRef .tc r) = m ((c.tc : Thread nD τ).loc r) := by
  rw [ops_fold]
  exact up9 m c r h1 h2 h3 h4 h5 h6 h7 h8 h9

/-- Every weakly fair execution of the whole-array program terminates with the result at the graph convolution of the
    argument arrays and the arguments as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v82)
        = gcnOut (m ((c.tc : Thread nD τ).loc main_arg1)) (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c main_v82).trans (result_eq m c),
       (h c main_arg0).trans (arg_kept m c main_arg0 (by decide) (by decide) (by decide) (by decide) (by decide) (by decide) (by decide) (by decide) (by decide)),
       (h c main_arg1).trans (arg_kept m c main_arg1 (by decide) (by decide) (by decide) (by decide) (by decide) (by decide) (by decide) (by decide) (by decide)),
       (h c main_arg2).trans (arg_kept m c main_arg2 (by decide) (by decide) (by decide) (by decide) (by decide) (by decide) (by decide) (by decide) (by decide)),
       (h c main_arg3).trans (arg_kept m c main_arg3 (by decide) (by decide) (by decide) (by decide) (by decide) (by decide) (by decide) (by decide) (by decide)),
       (h c main_arg4).trans (arg_kept m c main_arg4 (by decide) (by decide) (by decide) (by decide) (by decide) (by decide) (by decide) (by decide) (by decide)),
       (h c main_arg5).trans (arg_kept m c main_arg5 (by decide) (by decide) (by decide) (by decide) (by decide) (by decide) (by decide) (by decide) (by decide)),
       (h c main_arg6).trans (arg_kept m c main_arg6 (by decide) (by decide) (by decide) (by decide) (by decide) (by decide) (by decide) (by decide) (by decide)),
       (h c main_arg7).trans (arg_kept m c main_arg7 (by decide) (by decide) (by decide) (by decide) (by decide) (by decide) (by decide) (by decide) (by decide))⟩)
    (run_main m ρ)

end Cert.ReferenceIdeal.RefFold

end
-- ==== Proof.lean ====
/-
  A three-layer graph convolution over 100000 nodes and 1700000 edges (the 1600000 given ones and a self loop per node),
  computed two ways, gives the same array at exact arithmetic.

  Both programs build the edge arrays (sources, destinations, and the weights deg(src)^(-1/2) deg(dst)^(-1/2)) and run
  each aggregation step (gather the rows at the sources, scale by the weights, add up at the destinations) with the
  same whole-array operations. They differ in the dense parts. One computes each layer's matrix product, the bias and
  the leaky rectifier in tiled regions, ten blocks of 10000 rows at a time, the product as a matrix-unit product into a
  zero accumulator of operands first narrowed to 16-bit floats, the bias as a one-row array. The other computes them
  on whole arrays, the bias broadcast to every row. At exact arithmetic a narrowing is the identity, both products are
  the sum over the shared index, an entry of a block of rows of a product is the entry of the whole product on that
  row, and the two forms of the bias hold the same entries; the blocks tile the arrays. So both results are the one
  function `Cert.Gcn.gcnOut` of the argument arrays. No finiteness of the inputs is used.

  The three runs terminate without a fault and leave the arguments as launched; the word-level program and its
  idealization have the same text, so nothing is owed between them.
-/
import proofs.«161881_j2370821947614_1_alg».proof.Defs
import proofs.«161881_j2370821947614_1_alg».proof.Proof.Gen.Kernel
import proofs.«161881_j2370821947614_1_alg».proof.Proof.Gen.Kernel.Frame
import proofs.«161881_j2370821947614_1_alg».proof.Proof.Gen.KernelIdeal
import proofs.«161881_j2370821947614_1_alg».proof.Proof.Gen.KernelIdeal.Frame
import proofs.«161881_j2370821947614_1_alg».proof.Proof.Gen.ReferenceIdeal
import proofs.«161881_j2370821947614_1_alg».proof.Proof.Gen.Pre_finite_inputs
import proofs.«161881_j2370821947614_1_alg».proof.Proof.KRun
import proofs.«161881_j2370821947614_1_alg».proof.Proof.KFold
import proofs.«161881_j2370821947614_1_alg».proof.Proof.RefFold

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The whole-array program's run, with the result dropped. -/
theorem frame_ri : Cert.frame_ReferenceIdeal := fun m ρ _ =>
  (θ_run Cert.ReferenceIdeal.defs _ _).mono (fun _ h c => (h c).2) (Cert.ReferenceIdeal.RefFold.run m ρ)

theorem preserves : Cert.preserves_Kernel_KernelIdeal := trivial

/-- Both results are the graph convolution of arguments that agree. -/
theorem algebraic : Cert.algebraic_KernelIdeal_ReferenceIdeal := by
  intro m ρ m' ρ' _ hagree
  refine ⟨fun c => Cert.Gcn.gcnOut (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KFold.result_eq m ρ c), (h c).2⟩)
      (Cert.KernelIdeal.KRun.run_named m ρ)
  · refine (θ_run Cert.ReferenceIdeal.defs _ _).mono (fun r h c => ⟨(h c).1.trans ?_, (h c).2⟩)
      (Cert.ReferenceIdeal.RefFold.run m' ρ')
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
